-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x32 : Shape := ⟨3, ![8, 4096, 32]⟩
abbrev S_ : Shape := ⟨0, ![]⟩

class Facts : Prop where
  bcast_S_S8x4096x32 : S_.BroadcastsInDim S8x4096x32 (![] : Fin 0 → Fin S8x4096x32.rank)
  reducesTo_S8x4096x32_S_d0_1_2 : S8x4096x32.ReducesTo [0, 1, 2] S_
  h_S_ : 0 < S_.numel

variable [Facts]

def fn {F : FTy → Type} [FloatOps F] (main_arg0 : FVec F S8x4096x32 .f32) (main_arg1 : FVec F S8x4096x32 .f32) : IVec S_ 1 :=
  let main_v0 : FVec F S8x4096x32 .f32 := Host.absf main_arg0
  let main_cst : FVec F S_ .f32 := constant S_ .f32 0x7F800000#32
  let main_v1 : FVec F S8x4096x32 .f32 := broadcastInDim S8x4096x32 ![] bcast_S_S8x4096x32 main_cst
  let main_v2 : IVec S8x4096x32 1 := cmpf .olt main_v0 main_v1
  let main_c : IVec S_ 1 := constantI S_ 1 1#1
  let main_v3 : IVec S_ 1 := (fun x v => Host.reduce IntOp.andi x v reducesTo_S8x4096x32_S_d0_1_2 h_S_) main_v2 main_c
  let main_v4 : FVec F S8x4096x32 .f32 := Host.absf main_arg1
  let main_cst_0 : FVec F S_ .f32 := constant S_ .f32 0x7F800000#32
  let main_v5 : FVec F S8x4096x32 .f32 := broadcastInDim S8x4096x32 ![] bcast_S_S8x4096x32 main_cst_0
  let main_v6 : IVec S8x4096x32 1 := cmpf .olt main_v4 main_v5
  let main_c_1 : IVec S_ 1 := constantI S_ 1 1#1
  let main_v7 : IVec S_ 1 := (fun x v => Host.reduce IntOp.andi x v reducesTo_S8x4096x32_S_d0_1_2 h_S_) main_v6 main_c_1
  let main_v8 : IVec S_ 1 := andi main_v3 main_v7
  main_v8
-- ==== Kernel.lean ====
abbrev S8x4096x32 : Shape := ⟨3, ![8, 4096, 32]⟩
abbrev S8x1x4096 : Shape := ⟨3, ![8, 1, 4096]⟩
abbrev S1x1024x32 : Shape := ⟨3, ![1, 1024, 32]⟩
abbrev S1x4096x32 : Shape := ⟨3, ![1, 4096, 32]⟩
abbrev S1x1x1024 : Shape := ⟨3, ![1, 1, 1024]⟩
abbrev S1x1x4096 : Shape := ⟨3, ![1, 1, 4096]⟩
abbrev S1x4096 : Shape := ⟨2, ![1, 4096]⟩
abbrev S1024x32 : Shape := ⟨2, ![1024, 32]⟩
abbrev S1024 : Shape := ⟨1, ![1024]⟩
abbrev S1024x1 : Shape := ⟨2, ![1024, 1]⟩
abbrev S32x1024 : Shape := ⟨2, ![32, 1024]⟩
abbrev S1024x1024 : Shape := ⟨2, ![1024, 1024]⟩
abbrev S1x1024 : Shape := ⟨2, ![1, 1024]⟩
abbrev S8x4096 : Shape := ⟨2, ![8, 4096]⟩
abbrev S_ : Shape := ⟨0, ![]⟩
abbrev S8 : Shape := ⟨1, ![8]⟩

abbrev nBuf : Space → Nat
  | .hbm => 20
  | .vmem => 9
  | .smem => 0
  | _ => 0

abbrev bufTy : (tb : Table) → Fin (tcTables nBuf tb) → BufTy
  | .hbm, ⟨0, _⟩ => ⟨S8x4096x32, .f32⟩
  | .hbm, ⟨1, _⟩ => ⟨S8x4096x32, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .local _ .vmem, ⟨0, _⟩ => ⟨S1x1024x32, .f32⟩
  | .local _ .vmem, ⟨1, _⟩ => ⟨S1x1024x32, .f32⟩
  | .local _ .vmem, ⟨2, _⟩ => ⟨S1x4096x32, .f32⟩
  | .local _ .vmem, ⟨3, _⟩ => ⟨S1x4096x32, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v117 : BitVec 1 := Scalar.cmpi .eq arg1 c3_i32
  let v118 : BitVec 32 := Scalar.extui v117
  let c0_i32_53 : BitVec 32 := 0#32
  let v119 : BitVec 1 := Scalar.cmpi .ne v118 c0_i32_53
  v119

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  reduces_S1024x32_S1024 : S1024x32.Reduces [1] S1024
  shapeCasts_S1024_S1024x1 : S1024.ShapeCasts S1024x1
  bitsLt_bf16_f32 : FTy.bits .bf16 < FTy.bits .f32
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x4096x32_S1x1024x32_0_0_0 : ∀ a, (![0, 0, 0] : Fin 3 → Nat) a + S1x1024x32.size a ≤ S1x4096x32.size a
  transposes_S1024x32_p1_0_S32x1024 : S1024x32.Transposes [1, 0] S32x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  inb_S1x4096x32_S1x1024x32_0_1024_0 : ∀ a, (![0, 1024, 0] : Fin 3 → Nat) a + S1x1024x32.size a ≤ S1x4096x32.size a
  inb_S1x4096_S1x1024_0_1024 : ∀ a, (![0, 1024] : Fin 2 → Nat) a + S1x1024.size a ≤ S1x4096.size a
  inb_S1x4096x32_S1x1024x32_0_2048_0 : ∀ a, (![0, 2048, 0] : Fin 3 → Nat) a + S1x1024x32.size a ≤ S1x4096x32.size a
  inb_S1x4096_S1x1024_0_2048 : ∀ a, (![0, 2048] : Fin 2 → Nat) a + S1x1024.size a ≤ S1x4096.size a
  inb_S1x4096x32_S1x1024x32_0_3072_0 : ∀ a, (![0, 3072, 0] : Fin 3 → Nat) a + S1x1024x32.size a ≤ S1x4096x32.size a
  inb_S1x4096_S1x1024_0_3072 : ∀ a, (![0, 3072] : Fin 2 → Nat) a + S1x1024.size a ≤ S1x4096.size a
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  dot_S1024x32_S32x1024_S1024x1024_1_0_0_1_n_n_wf : DotDims.WF S1024x32 S32x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x32.size a ≤ S8x4096x32.size a
  hwx0_0 : ∀ i : grid0.Coords, EltTy.bits .f32 = 32 ∨ (Rect.block (s := S8x4096x32) S1x1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x32.size a ≤ S8x4096x32.size a
  hwx0_1 : ∀ i : grid0.Coords, EltTy.bits .f32 = 32 ∨ (Rect.block (s := S8x4096x32) S1x4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

abbrev win0_0 : Pipeline.Window sig grid0 :=
  Pipeline.Window.ofSpec (Memref.whole main_arg0) S1x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x32 : Shape := ⟨3, ![8, 4096, 32]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x32, .f32⟩
  | .hbm, ⟨1, _⟩ => ⟨S8x4096x32, .f32⟩
  | .hbm, ⟨2, _⟩ => ⟨S8x4096x32, .f32⟩
  | .hbm, ⟨3, _⟩ => ⟨S_, .f32⟩
  | .hbm, ⟨4, _⟩ => ⟨S8x4096, .f32⟩
  | .hbm, ⟨5, _⟩ => ⟨S8x4096x32, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | _, _ => ⟨S8x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  reducesTo_S8x4096x32_S8x4096_d2 : S8x4096x32.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  dot_S8x4096x32_S8x4096x32_S8x4096x4096_2_2_1_1_0_0_wf : DotDims.WF S8x4096x32 S8x4096x32 S8x4096x4096 [2] [2] [1] [1] [0] [0]

variable [Facts₀]

def dot_S8x4096x32_S8x4096x32_S8x4096x4096_2_2_1_1_0_0 : DotDims S8x4096x32 S8x4096x32 S8x4096x4096 where
  lhsContracting := [2]
  rhsContracting := [2]
  lhsNonContracting := [1]
  rhsNonContracting := [1]
  lhsBatch := [0]
  rhsBatch := [0]
  wf := dot_S8x4096x32_S8x4096x32_S8x4096x4096_2_2_1_1_0_0_wf

class Facts : Prop extends Facts₀ where

variable [Facts]
-- ==== Proof.Spec.lean ====
/-
  The common value of the two programs, as one function of the two point clouds.

  For clouds x, y of 8 batches × 4096 points × 32 coordinates, the squared distance between point p of x and
  point q of y in batch n is expanded as  |x_p|² + |y_q|² − 2·⟨x_p, y_q⟩.  The distance from a point to the other
  cloud is the root of the (clamped at 0) least squared distance; the result is the mean of the two clouds' mean
  distances.  The one law used:  z ↦ √(max z 0)  is monotone on the extended reals and fixes +∞, so it commutes with
  a minimum taken from +∞ — taking the least squared distance and then the root is taking the least distance.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A cloud: 8 batches of 4096 points with 32 coordinates. -/
abbrev Pts : Shape := ⟨3, ![8, 4096, 32]⟩
/-- One number per batch and point. -/
abbrev Dists : Shape := ⟨2, ![8, 4096]⟩
/-- One number per batch. -/
abbrev PerBatch : Shape := ⟨1, ![8]⟩
/-- A single number. -/
abbrev Scal : Shape := ⟨0, ![]⟩

/-- The f32 pattern of +∞ is the top of the extended reals. -/
theorem ofBits_inf : Ideal.ofBits .f32 0x7F800000#32 = ⊤ := by simp [Ideal.ofBits, Ideal.ieee]

/-! ## Clamp at zero, then take the root -/

/-- z ↦ √(max z 0). -/
def clampRoot (z : EReal) : EReal := Ideal.sqrt (max z 0)

/-- On the nonnegative extended reals the root is monotone. -/
theorem sqrt_mono_of_nonneg {u v : EReal} (hu : 0 ≤ u) (huv : u ≤ v) : Ideal.sqrt u ≤ Ideal.sqrt v := by
  induction u using EReal.rec with
  | bot => exact absurd hu (by simp)
  | top => rw [top_le_iff.mp huv]
  | coe r =>
    induction v using EReal.rec with
    | bot => exact absurd (le_trans hu huv) (by simp)
    | top => rw [Ideal.sqrt_top]; exact le_top
    | coe s =>
      have hr : 0 ≤ r := by exact_mod_cast hu
      have hrs : r ≤ s := by exact_mod_cast huv
      rw [Ideal.sqrt_coe, Ideal.sqrt_coe, if_neg (not_lt.mpr hr), if_neg (not_lt.mpr (hr.trans hrs))]
      exact_mod_cast Real.sqrt_le_sqrt hrs

theorem clampRoot_mono : Monotone clampRoot := fun a b hab =>
  sqrt_mono_of_nonneg (le_max_right a 0) (max_le_max hab le_rfl)

theorem clampRoot_top : clampRoot ⊤ = ⊤ := by
  unfold clampRoot
  rw [max_eq_left le_top, Ideal.sqrt_top]

theorem clampRoot_min (a b : EReal) : clampRoot (min a b) = min (clampRoot a) (clampRoot b) :=
  clampRoot_mono.map_min

/-- The root of the clamped least value is the least of the roots of the clamped values, the minimum taken from +∞. -/
theorem clampRoot_fold {ι : Type*} (s : Finset ι) (f : ι → EReal) :
    clampRoot (s.fold min ⊤ f) = s.fold min ⊤ (fun i => clampRoot (f i)) := by
  have h := (Finset.fold_hom (op := min) (op' := min) (m := clampRoot) (s := s) (b := ⊤) (f := f) clampRoot_min).symm
  rw [clampRoot_top] at h
  exact h

/-- A bound below a minimum taken from +∞ is a bound below every term. -/
theorem le_fold_min_top {ι : Type*} (s : Finset ι) (f : ι → EReal) (z : EReal) :
    z ≤ s.fold min ⊤ f ↔ ∀ i ∈ s, z ≤ f i := by
  rw [Finset.le_fold_min]
  exact ⟨fun h => h.2, fun h => ⟨le_top, h⟩⟩

/-! ## The squared distances and the two distance arrays -/

/-- |x_p|² + |y_q|² − 2·⟨x_p, y_q⟩ in batch n (the factor 2 kept as its f32 pattern). -/
def sqd (x y : Pts.Idx → EReal) (n : Fin 8) (p q : Fin 4096) : EReal :=
  ((∑ d : Fin 32, x (ix3 n p d) * x (ix3 n p d)) + ∑ d : Fin 32, y (ix3 n q d) * y (ix3 n q d))
    - Ideal.ofBits .f32 0x40000000#32 * ∑ d : Fin 32, x (ix3 n p d) * y (ix3 n q d)

/-- The distance from point p of x to the cloud y, in batch n. -/
def rowDist (x y : Pts.Idx → EReal) (n : Fin 8) (p : Fin 4096) : EReal :=
  clampRoot (Finset.univ.fold min ⊤ fun q : Fin 4096 => sqd x y n p q)

/-- The distance from point q of y to the cloud x, in batch n. -/
def colDist (x y : Pts.Idx → EReal) (n : Fin 8) (q : Fin 4096) : EReal :=
  clampRoot (Finset.univ.fold min ⊤ fun p : Fin 4096 => sqd x y n p q)

theorem rowDist_eq (x y : Pts.Idx → EReal) (n : Fin 8) (p : Fin 4096) :
    rowDist x y n p = Finset.univ.fold min ⊤ fun q : Fin 4096 => clampRoot (sqd x y n p q) :=
  clampRoot_fold _ _

theorem colDist_eq (x y : Pts.Idx → EReal) (n : Fin 8) (q : Fin 4096) :
    colDist x y n q = Finset.univ.fold min ⊤ fun p : Fin 4096 => clampRoot (sqd x y n p q) :=
  clampRoot_fold _ _

/-- The two distance arrays. -/
def rowArr (x y : Pts.Idx → EReal) : FVec Ideal Dists .f32 := fun j => rowDist x y (j 0) (j 1)
def colArr (x y : Pts.Idx → EReal) : FVec Ideal Dists .f32 := fun j => colDist x y (j 0) (j 1)

/-! ## The host's last lines: the mean of the two means -/

/-- Each array summed over its points and divided by 4096; the two added; divided by 2. The operations are the host's
    own, so that both programs end in this one term. -/
def meanOfMeans (hr : Dists.ReducesTo [1] PerBatch) (hs : 0 < Scal.numel)
    (hb : Scal.BroadcastsInDim PerBatch (![] : Fin 0 → Fin PerBatch.rank))
    (r c : FVec Ideal Dists .f32) : FVec Ideal PerBatch .f32 :=
  Host.divf
    (addf
      (Host.divf (Host.reduceAdd r (constant (F := Ideal) Scal .f32 0x00000000#32) hr hs)
        (broadcastInDim PerBatch ![] hb (constant (F := Ideal) Scal .f32 0x45800000#32)))
      (Host.divf (Host.reduceAdd c (constant (F := Ideal) Scal .f32 0x00000000#32) hr hs)
        (broadcastInDim PerBatch ![] hb (constant (F := Ideal) Scal .f32 0x45800000#32))))
    (broadcastInDim PerBatch ![] hb (constant (F := Ideal) Scal .f32 0x40000000#32))

end Cert.Chamfer

end
-- ==== Proof.KSpec.lean ====
/-
  The kernel's side, stated: which batch and which rows a grid point works on, what its two output blocks hold, and
  what the two output arrays hold in the end.

  Grid point t of 32 is tile i = t mod 4 of batch n = t div 4: it holds rows 1024·i … 1024·i + 1023 of the first cloud
  and the whole second cloud of batch n.  Its row block is the distances of those 1024 points to the second cloud;
  at the last tile of a batch its column block is the distances of the batch's 4096 points of the second cloud to
  the first cloud.
-/
import proofs.«108786_j8254927143420_2_alg».proof.Proof.Gen.KernelIdeal.Frame
import proofs.«108786_j8254927143420_2_alg».proof.Proof.Spec

noncomputable section

namespace Cert.Chamfer.K

open Idealize.ShloMosaic Idealize.ShloMosaic.TcCoe Idealize.SL.Sem
open Cert.KernelIdeal Cert.KernelIdeal.Gen Cert.Chamfer

variable (m : (ℓ : Loc nD τ sig) → Buf (Elt Ideal) ℓ)

/-- The first cloud, as the region finds it on core c. -/
def cx (c : Dev nD) : Pts.Idx → EReal := V m c main_arg0
/-- The second cloud. -/
def cy (c : Dev nD) : Pts.Idx → EReal := V m c main_arg1

/-- The batch of grid point t. -/
def batchOf (t : Fin cfg0.N) : Fin 8 :=
  ⟨t.val / 4, by have h := t.isLt; have hN : cfg0.N = 32 := N_0; omega⟩

/-- Row r of the block at grid point t, as a row of the cloud. -/
def rowOf (t : Fin cfg0.N) (r : Fin 1024) : Fin 4096 :=
  ⟨1024 * (t.val % 4) + r.val, by have h := r.isLt; omega⟩

/-- The row block after point t: the distances of the block's points to the second cloud. -/
def rowBlk (c : Dev nD) (t : Fin cfg0.N) : Vec Ideal S1x1x1024 .f32 :=
  fun j => rowDist (cx m c) (cy m c) (batchOf t) (rowOf t ⟨(j 2).val, (j 2).isLt⟩)

/-- The column block after the last tile of a batch: the distances of the second cloud's points to the first. -/
def colBlk (c : Dev nD) (t : Fin cfg0.N) : Vec Ideal S1x1x4096 .f32 :=
  fun j => colDist (cx m c) (cy m c) (batchOf t) ⟨(j 2).val, (j 2).isLt⟩

/-- The first output array in the end. -/
def rowFull (c : Dev nD) : S8x1x4096.Idx → EReal :=
  fun i => rowDist (cx m c) (cy m c) ⟨(i 0).val, (i 0).isLt⟩ ⟨(i 2).val, (i 2).isLt⟩

/-- The second output array in the end. -/
def colFull (c : Dev nD) : S8x1x4096.Idx → EReal :=
  fun i => colDist (cx m c) (cy m c) ⟨(i 0).val, (i 0).isLt⟩ ⟨(i 2).val, (i 2).isLt⟩

end Cert.Chamfer.K

end
-- ==== Proof.LibMinReduce.lean ====
/-
  A minimum taken along one axis of an array of extended reals, read at an index.
-/
import Idealize.ShloMosaic.PureOps.Ideal.Laws

namespace Cert.Chamfer

open Idealize.ShloMosaic

/-- Over the extended reals a minimum-reduction along ONE axis is, at each reduced index, the minimum — taken from the
    accumulator's value — of the source over that axis's coordinates: the index with the coordinate put back on the
    reduced axis. (The companion of the library's statement for a maximum.) -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.Chamfer
-- ==== Proof.Tile.lean ====
/-
  One tile of squared distances, read at an index.

  The kernel body forms, for a block of 1024 points x_r of one cloud and a chunk of 1024 points y_c of the other,
  the 1024 × 1024 tile  |x_r|² + |y_c|² − 2·⟨x_r, y_c⟩ : the squared norms are lane sums of squares, the inner products a
  matrix product of the block with the transposed chunk (a change of float format is the identity on the extended
  reals), the rest broadcasts along rows and columns.  This module reads that tile, the squared norms and the two
  minimum-reductions of a tile (along a row, along a column) at an index.
-/
import proofs.«108786_j8254927143420_2_alg».proof.Proof.Gen.KernelIdeal.Skeleton
import proofs.«108786_j8254927143420_2_alg».proof.Proof.Spec
import proofs.«108786_j8254927143420_2_alg».proof.Proof.LibMinReduce
import Idealize.ShloMosaic.Lib.ValueIdx
import Idealize.ShloMosaic.Lib.ValueLayout
import Idealize.ShloMosaic.Lib.Pipeline.Value
import Idealize.ShloMosaic.PureOps.Ideal.Laws

noncomputable section

namespace Cert.Chamfer.Tile

open Idealize.ShloMosaic Idealize.ShloMosaic.ValueIdx
open Cert.KernelIdeal Cert.KernelIdeal.Gen

/-! ## Two layout steps of a column kept as a [a, 1] array -/

/-- A vector of length a seen as an [a, 1] column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast along rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions of the body, at an index -/

/-- A lane sum of a [1024, 32] array, at row r. -/
theorem laneSum_apply (v : FVec Ideal S1024x32 .f32) (hφ : FKind.Formats .f32)
    (hacc : (0x00000000#32 : BitVec 32) = FKind.add.neutral .f32 hφ) (r : Fin 1024) :
    multiReduction .add [1] S1024 v 0x00000000#32 reduces_S1024x32_S1024 hφ hacc (ix1 r) = ∑ d : Fin 32, v (ix2 r d) :=
  (Ideal.multiReduction_add_single v _ reduces_S1024x32_S1024 hφ hacc (ix1 r)).trans
    (Finset.sum_congr rfl fun d _ => congrArg v (funext fun a => Fin.ext (by
      match a with
      | ⟨0, _⟩ => rfl
      | ⟨1, _⟩ => rfl)))

/-- The minimum along a row of a [1024, 1024] tile, from +∞, at row r. -/
theorem rowMin_apply (v : FVec Ideal S1024x1024 .f32) (hφ : FKind.Formats .f32)
    (hacc : (0x7F800000#32 : BitVec 32) = FKind.minimumf.neutral .f32 hφ) (r : Fin 1024) :
    multiReduction .minimumf [1] S1024 v 0x7F800000#32 reduces_S1024x1024_S1024 hφ hacc (ix1 r)
      = Finset.univ.fold min ⊤ (fun c : Fin 1024 => v (ix2 r c)) := by
  refine (multiReduction_minimumf_single v _ reduces_S1024x1024_S1024 hφ hacc (ix1 r)).trans ?_
  rw [show FloatOps.ofBits (F := Ideal) .f32 0x7F800000#32 = (⊤ : EReal) from ofBits_inf]
  refine Finset.fold_congr fun c _ => ?_
  exact congrArg v (funext fun a => Fin.ext (by
    match a with
    | ⟨0, _⟩ => rfl
    | ⟨1, _⟩ => rfl))

/-- The minimum along a column of a [1024, 1024] tile, from +∞, at column c. -/
theorem colMin_apply (v : FVec Ideal S1024x1024 .f32) (hφ : FKind.Formats .f32)
    (hacc : (0x7F800000#32 : BitVec 32) = FKind.minimumf.neutral .f32 hφ) (c : Fin 1024) :
    multiReduction .minimumf [0] S1024 v 0x7F800000#32 reduces_S1024x1024_S1024_2 hφ hacc (ix1 c)
      = Finset.univ.fold min ⊤ (fun r : Fin 1024 => v (ix2 r c)) := by
  refine (multiReduction_minimumf_single v _ reduces_S1024x1024_S1024_2 hφ hacc (ix1 c)).trans ?_
  rw [show FloatOps.ofBits (F := Ideal) .f32 0x7F800000#32 = (⊤ : EReal) from ofBits_inf]
  refine Finset.fold_congr fun r _ => ?_
  exact congrArg v (funext fun a => Fin.ext (by
    match a with
    | ⟨0, _⟩ => rfl
    | ⟨1, _⟩ => rfl))

/-! ## The block of x: its rows, its squared norms, its copy in the narrower format -/

theorem block_apply (X : Vec Ideal S1x1024x32 .f32) (r : Fin 1024) (d : Fin 32) :
    k0_pay3 (F := Ideal) X (ix2 r d) = X (ix3 (0 : Fin 1) r d) := by
  unfold k0_pay3
  exact shapeCast_1ab_ab_apply X _ r d

theorem narrow_apply (X : Vec Ideal S1x1024x32 .f32) (r : Fin 1024) (d : Fin 32) :
    k0_pay5 (F := Ideal) X (ix2 r d) = X (ix3 (0 : Fin 1) r d) := by
  unfold k0_pay5
  exact block_apply X r d

theorem sqNorm_apply (X : Vec Ideal S1x1024x32 .f32) (r : Fin 1024) (u : Fin 1) :
    k0_pay4 (F := Ideal) X (ix2 r u) = ∑ d : Fin 32, X (ix3 (0 : Fin 1) r d) * X (ix3 (0 : Fin 1) r d) := by
  unfold k0_pay4
  refine (shapeCast_a_a1_apply _ _ r u).trans ?_
  refine (laneSum_apply _ _ _ r).trans ?_
  refine Finset.sum_congr rfl fun d _ => ?_
  rw [mulf_apply, block_apply]

/-! ## The inner products: the block times the transposed chunk -/

/-- The product's left operand index on the kept axis: the output's row. -/
theorem dot_lhs_row (i : S1024x1024.Idx) (q : dot_S1024x32_S32x1024_S1024x1024_1_0_0_1_n_n.contr.Idx) :
    (dot_S1024x32_S32x1024_S1024x1024_1_0_0_1_n_n.lhsIdx i q 0).val = (i 0).val := by
  unfold DotDims.lhsIdx
  rw [dif_neg (show ¬(0 : Fin S1024x32.rank) ∈ dot_S1024x32_S32x1024_S1024x1024_1_0_0_1_n_n.lhsBatch by decide),
    dif_pos (show (0 : Fin S1024x32.rank) ∈ dot_S1024x32_S32x1024_S1024x1024_1_0_0_1_n_n.lhsNonContracting by decide)]
  rfl

/-- The product's right operand index on the kept axis: the output's column. -/
theorem dot_rhs_col (i : S1024x1024.Idx) (q : dot_S1024x32_S32x1024_S1024x1024_1_0_0_1_n_n.contr.Idx) :
    (dot_S1024x32_S32x1024_S1024x1024_1_0_0_1_n_n.rhsIdx i q 1).val = (i 1).val := by
  unfold DotDims.rhsIdx
  rw [dif_neg (show ¬(1 : Fin S32x1024.rank) ∈ dot_S1024x32_S32x1024_S1024x1024_1_0_0_1_n_n.rhsBatch by decide),
    dif_pos (show (1 : Fin S32x1024.rank) ∈ dot_S1024x32_S32x1024_S1024x1024_1_0_0_1_n_n.rhsNonContracting by decide)]
  rfl

/-- The matrix product into a zero accumulator, at (r, c): the sum over the 32 coordinates. -/
theorem dot_apply (xb : FVec Ideal S1024x32 .bf16) (yt : FVec Ideal S32x1024 .bf16) (r c : Fin 1024) :
    matmul dot_S1024x32_S32x1024_S1024x1024_1_0_0_1_n_n none xb yt (constant (F := Ideal) S1024x1024 .f32 0x00000000#32) (ix2 r c)
      = ∑ d : Fin 32, xb (ix2 r d) * yt (ix2 d c) := by
  simp only [matmul]
  rw [Ideal.matmul_constant_zero_apply, ← Equiv.sum_comp (contrEquiv1 dot_S1024x32_S32x1024_S1024x1024_1_0_0_1_n_n 32 rfl rfl).symm]
  refine Finset.sum_congr rfl fun k _ => ?_
  have hk := contrEquiv1_symm_val dot_S1024x32_S32x1024_S1024x1024_1_0_0_1_n_n 32 rfl rfl k
  have el : dot_S1024x32_S32x1024_S1024x1024_1_0_0_1_n_n.lhsIdx (ix2 r c) ((contrEquiv1 dot_S1024x32_S32x1024_S1024x1024_1_0_0_1_n_n 32 rfl rfl).symm k) = ix2 r k :=
    funext fun a => Fin.ext (by
      match a with
      | ⟨0, _⟩ => exact dot_lhs_row _ _
      | ⟨1, _⟩ => exact (dot_S1024x32_S32x1024_S1024x1024_1_0_0_1_n_n.lhsIdx_val_of_single rfl _ _).trans hk)
  have er : dot_S1024x32_S32x1024_S1024x1024_1_0_0_1_n_n.rhsIdx (ix2 r c) ((contrEquiv1 dot_S1024x32_S32x1024_S1024x1024_1_0_0_1_n_n 32 rfl rfl).symm k) = ix2 k c :=
    funext fun a => Fin.ext (by
      match a with
      | ⟨0, _⟩ => exact (dot_S1024x32_S32x1024_S1024x1024_1_0_0_1_n_n.rhsIdx_val_of_single rfl _ _).trans hk
      | ⟨1, _⟩ => exact dot_rhs_col _ _)
  rw [el, er]

/-! ## The tile -/

/-- The tile of squared distances between a block (its squared norms x2, its rows xb) and a chunk yc of the other
    cloud, at (r, c):  |x_r|² + |y_c|² − 2·⟨x_r, y_c⟩. -/
theorem tile_apply (x2 : FVec Ideal S1024x1 .f32) (xb : FVec Ideal S1024x32 .bf16) (yc : Vec Ideal S1x1024x32 .f32)
    (r c : Fin 1024) :
    k0_pay10 (F := Ideal) x2 xb yc (ix2 r c)
      = (x2 (ix2 r (0 : Fin 1)) + ∑ d : Fin 32, yc (ix3 (0 : Fin 1) c d) * yc (ix3 (0 : Fin 1) c d))
          - Ideal.ofBits .f32 0x40000000#32 * ∑ d : Fin 32, xb (ix2 r d) * yc (ix3 (0 : Fin 1) c d) := by
  unfold k0_pay10
  rw [subf_apply, addf_apply, mulf_apply, broadcast_apply]
  refine congrArg₂ (· - ·) (congrArg₂ (· + ·) ?_ ?_) (congrArg₂ (· * ·) rfl ?_)
  · exact broadcastTo_a1_ab_apply x2 _ r c
  · refine (broadcastTo_1b_ab_apply _ _ r c).trans ?_
    refine (transpose_ix2_apply _ _ (0 : Fin 1) c).trans ?_
    refine (shapeCast_a_a1_apply _ _ c (0 : Fin 1)).trans ?_
    refine (laneSum_apply _ _ _ c).trans ?_
    refine Finset.sum_congr rfl fun d _ => ?_
    rw [mulf_apply, shapeCast_1ab_ab_apply]
  · refine (dot_apply _ _ r c).trans ?_
    refine Finset.sum_congr rfl fun d _ => ?_
    refine congrArg (xb (ix2 r d) * ·) ?_
    refine (transpose_ix2_apply _ _ d c).trans ?_
    rw [truncf_apply]
    exact shapeCast_1ab_ab_apply yc _ c d

/-- The first chunk's tile is the same term, formed from the block itself. -/
theorem tile_first (X : Vec Ideal S1x1024x32 .f32) (yc : Vec Ideal S1x1024x32 .f32) :
    k0_pay7 (F := Ideal) X yc = k0_pay10 (F := Ideal) (k0_pay4 X) (k0_pay5 X) yc := rfl

/-- The third and fourth chunks' tiles are the same term. -/
theorem tile_third (x2 : FVec Ideal S1024x1 .f32) (xb : FVec Ideal S1024x32 .bf16) (yc : Vec Ideal S1x1024x32 .f32) :
    k0_pay13 (F := Ideal) x2 xb yc = k0_pay10 (F := Ideal) x2 xb yc := rfl

theorem tile_fourth (x2 : FVec Ideal S1024x1 .f32) (xb : FVec Ideal S1024x32 .bf16) (yc : Vec Ideal S1x1024x32 .f32) :
    k0_pay16 (F := Ideal) x2 xb yc = k0_pay10 (F := Ideal) x2 xb yc := rfl

end Cert.Chamfer.Tile

end
-- ==== Proof.MinSplit.lean ====
/-
  A minimum over 4096 terms taken as four minima over 1024 consecutive terms.
-/
import proofs.«108786_j8254927143420_2_alg».proof.Proof.Spec

noncomputable section

namespace Cert.Chamfer

/-- Folding four chunk minima, first to last, into a running minimum that starts at +∞ gives the minimum of all
    4096 terms: a bound below the one is a bound below every term of every chunk, and every index lies in a chunk. -/
theorem fold_min_chunks (f : Fin 4096 → EReal)
    (h0 : ∀ c : Fin 1024, 0 + c.val < 4096) (h1 : ∀ c : Fin 1024, 1024 + c.val < 4096)
    (h2 : ∀ c : Fin 1024, 2048 + c.val < 4096) (h3 : ∀ c : Fin 1024, 3072 + c.val < 4096) :
    min (min (min (min ⊤ (Finset.univ.fold min ⊤ fun c : Fin 1024 => f ⟨0 + c.val, h0 c⟩))
          (Finset.univ.fold min ⊤ fun c : Fin 1024 => f ⟨1024 + c.val, h1 c⟩))
        (Finset.univ.fold min ⊤ fun c : Fin 1024 => f ⟨2048 + c.val, h2 c⟩))
      (Finset.univ.fold min ⊤ fun c : Fin 1024 => f ⟨3072 + c.val, h3 c⟩)
    = Finset.univ.fold min ⊤ f := by
  refine eq_of_forall_le_iff fun z => ?_
  simp only [le_min_iff, le_top, true_and, le_fold_min_top, Finset.mem_univ, forall_true_left]
  constructor
  · rintro ⟨⟨⟨a0, a1⟩, a2⟩, a3⟩ q
    have hq := q.isLt
    by_cases c0 : q.val < 1024
    · have := a0 ⟨q.val, c0⟩
      exact (congrArg (fun k => z ≤ f k) (Fin.ext (by show 0 + q.val = q.val; omega))).mp this
    by_cases c1 : q.val < 2048
    · have := a1 ⟨q.val - 1024, by omega⟩
      exact (congrArg (fun k => z ≤ f k) (Fin.ext (by show 1024 + (q.val - 1024) = q.val; omega))).mp this
    by_cases c2 : q.val < 3072
    · have := a2 ⟨q.val - 2048, by omega⟩
      exact (congrArg (fun k => z ≤ f k) (Fin.ext (by show 2048 + (q.val - 2048) = q.val; omega))).mp this
    · have := a3 ⟨q.val - 3072, by omega⟩
      exact (congrArg (fun k => z ≤ f k) (Fin.ext (by show 3072 + (q.val - 3072) = q.val; omega))).mp this
  · intro a
    exact ⟨⟨⟨fun c => a _, fun c => a _⟩, fun c => a _⟩, fun c => a _⟩

end Cert.Chamfer

end
-- ==== Proof.Point.lean ====
/-
  What one grid point computes, as functions of its blocks.

  A point holds a block X of 1024 points of the first cloud and the whole slab Y of 4096 points of the second cloud
  of its batch.  It sweeps Y in four chunks of 1024; for each chunk it forms the tile of squared distances, lowers a
  running row minimum by the tile's row minima, and lowers the carried column minimum of that chunk by the tile's
  column minima.  After the sweep the row minimum is clamped and rooted.  This module states those values at an
  index in terms of the squared distance between a row of X and a row of Y.
-/
import proofs.«108786_j8254927143420_2_alg».proof.Proof.Tile
import proofs.«108786_j8254927143420_2_alg».proof.Proof.MinSplit

noncomputable section

namespace Cert.Chamfer.Point

open Idealize.ShloMosaic Idealize.ShloMosaic.ValueIdx
open Cert.KernelIdeal Cert.KernelIdeal.Gen Cert.Chamfer Cert.Chamfer.Tile

/-- The squared distance between row r of the block and row q of the slab. -/
def tsq (X : Vec Ideal S1x1024x32 .f32) (Y : Vec Ideal S1x4096x32 .f32) (r : Fin 1024) (q : Fin 4096) : EReal :=
  ((∑ d : Fin 32, X (ix3 (0 : Fin 1) r d) * X (ix3 (0 : Fin 1) r d))
      + ∑ d : Fin 32, Y (ix3 (0 : Fin 1) q d) * Y (ix3 (0 : Fin 1) q d))
    - Ideal.ofBits .f32 0x40000000#32 * ∑ d : Fin 32, X (ix3 (0 : Fin 1) r d) * Y (ix3 (0 : Fin 1) q d)

/-! ## Chunks read at an index -/

/-- A chunk of 1024 rows of the slab starting at row o, at (u, c, d): the slab at row o + c. -/
theorem slabChunk_apply (Y : Vec Ideal S1x4096x32 .f32) (o : ℕ)
    (inb : ∀ a, (![0, o, 0] : Fin 3 → ℕ) a + (![1, 1024, 32] : Fin 3 → ℕ) a ≤ S1x4096x32.size a)
    (u : Fin 1) (c : Fin 1024) (d : Fin 32) (h : o + c.val < 4096) :
    View.ld Y (Rect.unit (s := S1x4096x32) ![0, o, 0] ![1, 1024, 32] inb) (ix3 u c d)
      = Y (ix3 (0 : Fin 1) ⟨o + c.val, h⟩ d) := by
  refine congrArg Y (funext fun a => Fin.ext ?_)
  match a with
  | ⟨0, _⟩ => show 0 + 1 * u.val = 0; omega
  | ⟨1, _⟩ => show o + 1 * c.val = o + c.val; omega
  | ⟨2, _⟩ => show 0 + 1 * d.val = d.val; omega

/-- A chunk of 1024 entries of the carried column minimum starting at o, at (u, c): the entry o + c. -/
theorem scratchChunk_apply (s : Vec Ideal S1x4096 .f32) (o : ℕ)
    (inb : ∀ a, (![0, o] : Fin 2 → ℕ) a + (![1, 1024] : Fin 2 → ℕ) a ≤ S1x4096.size a)
    (u : Fin 1) (c : Fin 1024) (h : o + c.val < 4096) :
    View.ld s (Rect.unit (s := S1x4096) ![0, o] ![1, 1024] inb) (ix2 u c) = s (ix2 (0 : Fin 1) ⟨o + c.val, h⟩) := by
  refine congrArg s (funext fun a => Fin.ext ?_)
  match a with
  | ⟨0, _⟩ => show 0 + 1 * u.val = 0; omega
  | ⟨1, _⟩ => show o + 1 * c.val = o + c.val; omega

/-! ## A chunk's tile in terms of the squared distance -/

theorem tileAt (X : Vec Ideal S1x1024x32 .f32) (Y : Vec Ideal S1x4096x32 .f32) (o : ℕ)
    (inb : ∀ a, (![0, o, 0] : Fin 3 → ℕ) a + (![1, 1024, 32] : Fin 3 → ℕ) a ≤ S1x4096x32.size a)
    (r c : Fin 1024) (h : o + c.val < 4096) :
    k0_pay10 (F := Ideal) (k0_pay4 X) (k0_pay5 X)
        (View.ld Y (Rect.unit (s := S1x4096x32) ![0, o, 0] ![1, 1024, 32] inb)) (ix2 r c)
      = tsq X Y r ⟨o + c.val, h⟩ := by
  rw [tile_apply, sqNorm_apply]
  unfold tsq
  refine congrArg₂ (· - ·) (congrArg₂ (· + ·) rfl ?_) (congrArg₂ (· * ·) rfl ?_)
  · refine Finset.sum_congr rfl fun d _ => ?_
    rw [slabChunk_apply Y o inb (0 : Fin 1) c d h]
  · refine Finset.sum_congr rfl fun d _ => ?_
    rw [narrow_apply, slabChunk_apply Y o inb (0 : Fin 1) c d h]

/-! ## The carried column minimum, lowered by one chunk's tile -/

/-- The column update: the prior chunk lowered, entry by entry, by the tile's column minima. -/
theorem colUpd_apply (T : FVec Ideal S1024x1024 .f32) (pv : Vec Ideal S1x1024 .f32) (u : Fin 1) (c : Fin 1024) :
    k0_pay15 (F := Ideal) T pv (ix2 u c)
      = min (pv (ix2 u c)) (Finset.univ.fold min ⊤ fun r : Fin 1024 => T (ix2 r c)) := by
  unfold k0_pay15
  rw [shapeCast_self]
  show min (pv (ix2 u c)) _ = _
  refine congrArg (min (pv (ix2 u c))) ?_
  refine (shapeCast_a_1a_apply _ _ u c).trans ?_
  exact colMin_apply T _ _ c

/-- What the sweep leaves in the carried column minimum: each entry lowered by the least squared distance from the
    block's 1024 points. -/
def colStep (X : Vec Ideal S1x1024x32 .f32) (Y : Vec Ideal S1x4096x32 .f32) (prev : Vec Ideal S1x4096 .f32) :
    Vec Ideal S1x4096 .f32 :=
  fun j => min (prev j) (Finset.univ.fold min ⊤ fun r : Fin 1024 => tsq X Y r ⟨(j 1).val, (j 1).isLt⟩)

/-- One chunk's store, whatever the prior chunk pv: pv lowered by the least squared distance from the block. -/
theorem colPieceOver (X : Vec Ideal S1x1024x32 .f32) (Y : Vec Ideal S1x4096x32 .f32) (pv : Vec Ideal S1x1024 .f32) (o : ℕ)
    (inb3 : ∀ a, (![0, o, 0] : Fin 3 → ℕ) a + (![1, 1024, 32] : Fin 3 → ℕ) a ≤ S1x4096x32.size a)
    (u : Fin 1) (c : Fin 1024) (h : o + c.val < 4096) :
    k0_pay15 (F := Ideal)
        (k0_pay10 (k0_pay4 X) (k0_pay5 X) (View.ld Y (Rect.unit (s := S1x4096x32) ![0, o, 0] ![1, 1024, 32] inb3)))
        pv (ix2 u c)
      = min (pv (ix2 u c)) (Finset.univ.fold min ⊤ fun r : Fin 1024 => tsq X Y r ⟨o + c.val, h⟩) := by
  rw [colUpd_apply]
  exact congrArg (min _) (Finset.fold_congr fun r _ => tileAt X Y o inb3 r c h)

/-- The other three chunk stores are the same term. -/
theorem pay9_eq (X : Vec Ideal S1x1024x32 .f32) (yc : Vec Ideal S1x1024x32 .f32) (pv : Vec Ideal S1x1024 .f32) :
    k0_pay9 (F := Ideal) X yc pv = k0_pay15 (k0_pay10 (k0_pay4 X) (k0_pay5 X) yc) pv := rfl
theorem pay12_eq (x2 : FVec Ideal S1024x1 .f32) (xb : FVec Ideal S1024x32 .bf16) (yc : Vec Ideal S1x1024x32 .f32)
    (pv : Vec Ideal S1x1024 .f32) : k0_pay12 (F := Ideal) x2 xb yc pv = k0_pay15 (k0_pay10 x2 xb yc) pv := rfl
theorem pay17_eq (x2 : FVec Ideal S1024x1 .f32) (xb : FVec Ideal S1024x32 .bf16) (yc : Vec Ideal S1x1024x32 .f32)
    (pv : Vec Ideal S1x1024 .f32) : k0_pay17 (F := Ideal) x2 xb yc pv = k0_pay15 (k0_pay10 x2 xb yc) pv := rfl

/-- The reset value of the carried column minimum: +∞ everywhere. -/
theorem reset_apply (y : S1x4096.Idx) : k0_pay6 (F := Ideal) y = ⊤ := by
  unfold k0_pay6
  rw [shapeCast_self]
  exact ofBits_inf

/-- The column block: the carried column minimum, clamped and rooted. -/
def colVal (s : Vec Ideal S1x4096 .f32) : Vec Ideal S1x1x4096 .f32 :=
  fun j => clampRoot (s (ix2 (0 : Fin 1) ⟨(j 2).val, (j 2).isLt⟩))

theorem colOut_apply (s : Vec Ideal S1x4096 .f32) (u0 u1 : Fin 1) (q : Fin 4096) :
    k0_pay2 (F := Ideal) s (ix3 u0 u1 q) = colVal s (ix3 u0 u1 q) := by
  unfold k0_pay2
  refine (shapeCast_ab_1ab_apply _ _ u0 u1 q).trans ?_
  show Ideal.sqrt (max (s (ix2 u1 q)) (Ideal.ofBits .f32 0x00000000#32)) = _
  rw [Ideal.ofBits_zero_f32]
  obtain rfl : u1 = 0 := Subsingleton.elim _ _
  rfl

/-- One chunk's store is colStep on that chunk. -/
theorem colPiece (X : Vec Ideal S1x1024x32 .f32) (Y : Vec Ideal S1x4096x32 .f32) (prev : Vec Ideal S1x4096 .f32) (o : ℕ)
    (inb3 : ∀ a, (![0, o, 0] : Fin 3 → ℕ) a + (![1, 1024, 32] : Fin 3 → ℕ) a ≤ S1x4096x32.size a)
    (inb2 : ∀ a, (![0, o] : Fin 2 → ℕ) a + (![1, 1024] : Fin 2 → ℕ) a ≤ S1x4096.size a)
    (u : Fin 1) (c : Fin 1024) (h : o + c.val < 4096) :
    k0_pay15 (F := Ideal)
        (k0_pay10 (k0_pay4 X) (k0_pay5 X) (View.ld Y (Rect.unit (s := S1x4096x32) ![0, o, 0] ![1, 1024, 32] inb3)))
        (View.ld prev (Rect.unit (s := S1x4096) ![0, o] ![1, 1024] inb2)) (ix2 u c)
      = colStep X Y prev (ix2 (0 : Fin 1) ⟨o + c.val, h⟩) := by
  rw [colUpd_apply, scratchChunk_apply prev o inb2 u c h]
  unfold colStep
  refine congrArg (min _) (Finset.fold_congr fun r _ => ?_)
  exact tileAt X Y o inb3 r c h

/-! ## The running row minimum, and the row block -/

/-- A tile's row minima kept as a column, at (r, u). -/
theorem rowMinCol_apply (T : FVec Ideal S1024x1024 .f32) (hφ : FKind.Formats .f32)
    (hacc : (0x7F800000#32 : BitVec 32) = FKind.minimumf.neutral .f32 hφ) (r : Fin 1024) (u : Fin 1) :
    shapeCast S1024x1 (multiReduction .minimumf [1] S1024 T 0x7F800000#32 reduces_S1024x1024_S1024 hφ hacc)
        shapeCasts_S1024_S1024x1 (ix2 r u)
      = Finset.univ.fold min ⊤ fun c : Fin 1024 => T (ix2 r c) :=
  (shapeCast_a_a1_apply _ _ r u).trans (rowMin_apply T hφ hacc r)

/-- The row block: for each of the block's points, the clamped root of its least squared distance to the slab. -/
def rowVal (X : Vec Ideal S1x1024x32 .f32) (Y : Vec Ideal S1x4096x32 .f32) : Vec Ideal S1x1x1024 .f32 :=
  fun j => clampRoot (Finset.univ.fold min ⊤ fun q : Fin 4096 => tsq X Y ⟨(j 2).val, (j 2).isLt⟩ q)

/-- The running row minimum lowered by a tile's row minima, at (r, u). -/
theorem rowAcc_apply (acc : FVec Ideal S1024x1 .f32) (T : FVec Ideal S1024x1024 .f32) (hφ : FKind.Formats .f32)
    (hacc : (0x7F800000#32 : BitVec 32) = FKind.minimumf.neutral .f32 hφ) (r : Fin 1024) (u : Fin 1) :
    minimumf acc (shapeCast S1024x1 (multiReduction .minimumf [1] S1024 T 0x7F800000#32 reduces_S1024x1024_S1024 hφ hacc) shapeCasts_S1024_S1024x1) (ix2 r u)
      = min (acc (ix2 r u)) (Finset.univ.fold min ⊤ fun c : Fin 1024 => T (ix2 r c)) := by
  rw [minimumf_apply, rowMinCol_apply]

/-- The running row minimum starts at +∞. -/
theorem rowStart_apply (T : FVec Ideal S1024x1024 .f32) (hφ : FKind.Formats .f32)
    (hacc : (0x7F800000#32 : BitVec 32) = FKind.minimumf.neutral .f32 hφ) (r : Fin 1024) (u : Fin 1) :
    minimumf (broadcast S1024x1 (Scalar.ofBits (F := Ideal) .f32 0x7F800000#32)) (shapeCast S1024x1 (multiReduction .minimumf [1] S1024 T 0x7F800000#32 reduces_S1024x1024_S1024 hφ hacc) shapeCasts_S1024_S1024x1) (ix2 r u)
      = min ⊤ (Finset.univ.fold min ⊤ fun c : Fin 1024 => T (ix2 r c)) := by
  rw [rowAcc_apply, broadcast_apply]
  exact congrArg (min · _) ofBits_inf

/-- The last step: the running minimum lowered by the last tile, clamped at zero, rooted, and laid out as a row. -/
theorem rowFinish_apply (a b : FVec Ideal S1024x1 .f32) (T : FVec Ideal S1024x1024 .f32) (hφ : FKind.Formats .f32)
    (hacc : (0x7F800000#32 : BitVec 32) = FKind.minimumf.neutral .f32 hφ) (u : Fin 1) (r : Fin 1024) :
    transpose S1x1024 [1, 0]
        (sqrt (maximumf (minimumf (minimumf a b) (shapeCast S1024x1 (multiReduction .minimumf [1] S1024 T 0x7F800000#32 reduces_S1024x1024_S1024 hφ hacc) shapeCasts_S1024_S1024x1))
          (broadcast S1024x1 (Scalar.ofBits (F := Ideal) .f32 0x00000000#32))))
        transposes_S1024x1_p1_0_S1x1024 (ix2 u r)
      = clampRoot (min (min (a (ix2 r u)) (b (ix2 r u))) (Finset.univ.fold min ⊤ fun c : Fin 1024 => T (ix2 r c))) := by
  refine (transpose_ix2_apply _ _ u r).trans ?_
  show Ideal.sqrt (max (minimumf (minimumf a b) (shapeCast S1024x1 (multiReduction .minimumf [1] S1024 T 0x7F800000#32 reduces_S1024x1024_S1024 hφ hacc) shapeCasts_S1024_S1024x1) (ix2 r u)) (Ideal.ofBits .f32 0x00000000#32)) = _
  rw [rowAcc_apply, minimumf_apply, Ideal.ofBits_zero_f32]
  rfl

/-- The row block the body stores: the running minimum over the four chunks, clamped and rooted. -/
theorem rowPiece (X : Vec Ideal S1x1024x32 .f32) (Y : Vec Ideal S1x4096x32 .f32)
    (i0 : ∀ a, (![0, 0, 0] : Fin 3 → ℕ) a + (![1, 1024, 32] : Fin 3 → ℕ) a ≤ S1x4096x32.size a)
    (i1024 : ∀ a, (![0, 1024, 0] : Fin 3 → ℕ) a + (![1, 1024, 32] : Fin 3 → ℕ) a ≤ S1x4096x32.size a)
    (i2048 : ∀ a, (![0, 2048, 0] : Fin 3 → ℕ) a + (![1, 1024, 32] : Fin 3 → ℕ) a ≤ S1x4096x32.size a)
    (i3072 : ∀ a, (![0, 3072, 0] : Fin 3 → ℕ) a + (![1, 1024, 32] : Fin 3 → ℕ) a ≤ S1x4096x32.size a)
    (u0 u1 : Fin 1) (r : Fin 1024) :
    k0_pay1 (F := Ideal)
        (k0_pay18 (k0_pay4 X) (k0_pay5 X)
          (k0_pay11 (k0_pay4 X) (k0_pay5 X) (k0_pay8 X (View.ld Y (Rect.unit (s := S1x4096x32) ![0, 0, 0] ![1, 1024, 32] i0))) (View.ld Y (Rect.unit (s := S1x4096x32) ![0, 1024, 0] ![1, 1024, 32] i1024)))
          (k0_pay14 (k0_pay4 X) (k0_pay5 X) (View.ld Y (Rect.unit (s := S1x4096x32) ![0, 2048, 0] ![1, 1024, 32] i2048)))
          (View.ld Y (Rect.unit (s := S1x4096x32) ![0, 3072, 0] ![1, 1024, 32] i3072))) (ix3 u0 u1 r)
      = rowVal X Y (ix3 u0 u1 r) := by
  unfold k0_pay1
  refine (shapeCast_ab_1ab_apply _ _ u0 u1 r).trans ?_
  unfold k0_pay18
  refine (rowFinish_apply _ _ _ _ _ u1 r).trans ?_
  unfold rowVal
  refine congrArg clampRoot ?_
  rw [← fold_min_chunks (fun q => tsq X Y r q) (fun c => by omega) (fun c => by omega) (fun c => by omega) (fun c => by omega)]
  refine congrArg₂ min (congrArg₂ min ?_ ?_) ?_
  · unfold k0_pay11
    refine (rowAcc_apply _ _ _ _ r u1).trans (congrArg₂ min ?_ ?_)
    · unfold k0_pay8
      refine (rowStart_apply _ _ _ r u1).trans (congrArg (min ⊤) (Finset.fold_congr fun c _ => ?_))
      exact tileAt X Y 0 i0 r c (by omega)
    · exact Finset.fold_congr fun c _ => tileAt X Y 1024 i1024 r c (by omega)
  · unfold k0_pay14
    refine (rowMinCol_apply _ _ _ r u1).trans (Finset.fold_congr fun c _ => ?_)
    exact tileAt X Y 2048 i2048 r c (by omega)
  · exact Finset.fold_congr fun c _ => tileAt X Y 3072 i3072 r c (by omega)

end Cert.Chamfer.Point

end
-- ==== Proof.Pieces.lean ====
/-
  What the body leaves at a grid point, case by case.

  In every case the row block is the clamped root of each block point's least squared distance to the slab.  The
  carried column minimum is written in four chunks, each the prior chunk lowered by the block's least squared
  distances: together, one function of the prior contents — at the first tile of a batch the prior contents are +∞
  everywhere (the reset is stored first and read back).  At the last tile of a batch the column block is the clamped
  root of the carried column minimum just written.
-/
import proofs.«108786_j8254927143420_2_alg».proof.Proof.Gen.KernelIdeal.Frame
import proofs.«108786_j8254927143420_2_alg».proof.Proof.Point
import Idealize.ShloMosaic.Lib.Pipeline.CanonAppend
import Idealize.ShloMosaic.Lib.Tactic

set_option maxRecDepth 16384

noncomputable section

namespace Cert.Chamfer.Pieces

open Idealize.ShloMosaic Idealize.ShloMosaic.TcCoe Idealize.ShloMosaic.ValueIdx Idealize.SL.Sem
open Cert.KernelIdeal Cert.KernelIdeal.Gen Cert.Chamfer Cert.Chamfer.Tile Cert.Chamfer.Point

theorem hz3 : (![0, 0, 0] : Fin 3 → Nat) = fun _ => 0 := funext fun a => by fin_cases a <;> rfl
theorem hz2 : (![0, 0] : Fin 2 → Nat) = fun _ => 0 := funext fun a => by fin_cases a <;> rfl

/-- Entry (u, c) of the chunk starting at o is entry o + c of the buffer. -/
theorem emb_chunk (o : ℕ) (inb : ∀ a, (![0, o] : Fin 2 → ℕ) a + (![1, 1024] : Fin 2 → ℕ) a ≤ S1x4096.size a)
    (u : Fin 1) (c : Fin 1024) (h : o + c.val < 4096) :
    (Rect.unit (s := S1x4096) ![0, o] ![1, 1024] inb).emb (ix2 u c) = ix2 (0 : Fin 1) ⟨o + c.val, h⟩ :=
  funext fun a => Fin.ext (by
    match a with
    | ⟨0, _⟩ => show 0 + 1 * u.val = 0; omega
    | ⟨1, _⟩ => show o + 1 * c.val = o + c.val; omega)

/-- An entry of a later chunk lies in no earlier chunk. -/
theorem not_mem_chunk (o o' : ℕ) (inb : ∀ a, (![0, o] : Fin 2 → ℕ) a + (![1, 1024] : Fin 2 → ℕ) a ≤ S1x4096.size a)
    (inb' : ∀ a, (![0, o'] : Fin 2 → ℕ) a + (![1, 1024] : Fin 2 → ℕ) a ≤ S1x4096.size a)
    (u : Fin 1) (c : Fin 1024) (hle : o' + 1024 ≤ o) :
    (Rect.unit (s := S1x4096) ![0, o] ![1, 1024] inb).toLoadRect.idx (ix2 u c)
      ∉ (Rect.unit (s := S1x4096) ![0, o'] ![1, 1024] inb').set := by
  intro hm
  have h1 : o' ≤ o + 1 * c.val ∧ o + 1 * c.val < o' + 1024 := (Rect.mem_set_unit.mp hm) 1
  omega

/-- So reading an entry of a later chunk passes over a store into an earlier chunk. -/
theorem canon_skip (o o' : ℕ) (inb : ∀ a, (![0, o] : Fin 2 → ℕ) a + (![1, 1024] : Fin 2 → ℕ) a ≤ S1x4096.size a)
    (inb' : ∀ a, (![0, o'] : Fin 2 → ℕ) a + (![1, 1024] : Fin 2 → ℕ) a ≤ S1x4096.size a)
    (w : (Rect.unit (s := S1x4096) ![0, o'] ![1, 1024] inb').shape.Idx → Elt Ideal .f32)
    (L : List (View.Piece (Elt Ideal) S1x4096 .f32)) (u : Fin 1) (c : Fin 1024) (hle : o' + 1024 ≤ o) :
    View.canon ((⟨Rect.unit (s := S1x4096) ![0, o'] ![1, 1024] inb', w⟩ : View.Piece (Elt Ideal) S1x4096 .f32) :: L)
        ((Rect.unit (s := S1x4096) ![0, o] ![1, 1024] inb).toLoadRect.idx (ix2 u c))
      = View.canon L ((Rect.unit (s := S1x4096) ![0, o] ![1, 1024] inb).toLoadRect.idx (ix2 u c)) :=
  View.canon_cons_of_not_mem _ _ (not_mem_chunk o o' inb inb' u c hle)

/-! ## The four chunk stores are one function of the prior contents -/

theorem canon_sweep (X : Vec Ideal S1x1024x32 .f32) (Y : Vec Ideal S1x4096x32 .f32) (prev : Vec Ideal S1x4096 .f32)
    (i0 : ∀ a, (![0, 0, 0] : Fin 3 → ℕ) a + (![1, 1024, 32] : Fin 3 → ℕ) a ≤ S1x4096x32.size a) (i1024 : ∀ a, (![0, 1024, 0] : Fin 3 → ℕ) a + (![1, 1024, 32] : Fin 3 → ℕ) a ≤ S1x4096x32.size a)
    (i2048 : ∀ a, (![0, 2048, 0] : Fin 3 → ℕ) a + (![1, 1024, 32] : Fin 3 → ℕ) a ≤ S1x4096x32.size a) (i3072 : ∀ a, (![0, 3072, 0] : Fin 3 → ℕ) a + (![1, 1024, 32] : Fin 3 → ℕ) a ≤ S1x4096x32.size a)
    (j0 : ∀ a, (![0, 0] : Fin 2 → ℕ) a + (![1, 1024] : Fin 2 → ℕ) a ≤ S1x4096.size a) (j1024 : ∀ a, (![0, 1024] : Fin 2 → ℕ) a + (![1, 1024] : Fin 2 → ℕ) a ≤ S1x4096.size a)
    (j2048 : ∀ a, (![0, 2048] : Fin 2 → ℕ) a + (![1, 1024] : Fin 2 → ℕ) a ≤ S1x4096.size a) (j3072 : ∀ a, (![0, 3072] : Fin 2 → ℕ) a + (![1, 1024] : Fin 2 → ℕ) a ≤ S1x4096.size a)
    (pv0 pv1 pv2 pv3 : Vec Ideal S1x1024 .f32)
    (h0 : ∀ (u : Fin 1) (c : Fin 1024) (h : 0 + c.val < 4096), pv0 (ix2 u c) = prev (ix2 (0 : Fin 1) ⟨0 + c.val, h⟩))
    (h1 : ∀ (u : Fin 1) (c : Fin 1024) (h : 1024 + c.val < 4096), pv1 (ix2 u c) = prev (ix2 (0 : Fin 1) ⟨1024 + c.val, h⟩))
    (h2 : ∀ (u : Fin 1) (c : Fin 1024) (h : 2048 + c.val < 4096), pv2 (ix2 u c) = prev (ix2 (0 : Fin 1) ⟨2048 + c.val, h⟩))
    (h3 : ∀ (u : Fin 1) (c : Fin 1024) (h : 3072 + c.val < 4096), pv3 (ix2 u c) = prev (ix2 (0 : Fin 1) ⟨3072 + c.val, h⟩))
    (L' : List (View.Piece (Elt Ideal) S1x4096 .f32)) :
    View.canon
      ([(⟨(Rect.unit (s := S1x4096) ![0, 3072] ![1, 1024] j3072), k0_pay17 (F := Ideal) (k0_pay4 X) (k0_pay5 X) (View.ld Y (Rect.unit (s := S1x4096x32) ![0, 3072, 0] ![1, 1024, 32] i3072)) pv3⟩ : View.Piece (Elt Ideal) S1x4096 .f32),
        ⟨(Rect.unit (s := S1x4096) ![0, 2048] ![1, 1024] j2048), k0_pay15 (F := Ideal) (k0_pay13 (k0_pay4 X) (k0_pay5 X) (View.ld Y (Rect.unit (s := S1x4096x32) ![0, 2048, 0] ![1, 1024, 32] i2048))) pv2⟩,
        ⟨(Rect.unit (s := S1x4096) ![0, 1024] ![1, 1024] j1024), k0_pay12 (F := Ideal) (k0_pay4 X) (k0_pay5 X) (View.ld Y (Rect.unit (s := S1x4096x32) ![0, 1024, 0] ![1, 1024, 32] i1024)) pv1⟩,
        ⟨(Rect.unit (s := S1x4096) ![0, 0] ![1, 1024] j0), k0_pay9 (F := Ideal) X (View.ld Y (Rect.unit (s := S1x4096x32) ![0, 0, 0] ![1, 1024, 32] i0)) pv0⟩] ++ L')
      = colStep X Y prev := by
  funext y
  refine View.canon_append_of_pieces (colStep X Y prev) L' _ ?_ y ?_
  · intro p hp x
    simp only [List.mem_cons, List.not_mem_nil, or_false] at hp
    rcases hp with rfl | rfl | rfl | rfl
    · obtain ⟨u, c, rfl⟩ : ∃ (u : Fin 1) (c : Fin 1024), x = ix2 u c := ⟨x 0, x 1, eq_ix2 x⟩
      dsimp only
      rw [pay17_eq, colPieceOver X Y pv3 3072 i3072 u c (by omega), h3 u c (by omega), emb_chunk 3072 j3072 u c (by omega)]
      rfl
    · obtain ⟨u, c, rfl⟩ : ∃ (u : Fin 1) (c : Fin 1024), x = ix2 u c := ⟨x 0, x 1, eq_ix2 x⟩
      dsimp only
      rw [tile_third, colPieceOver X Y pv2 2048 i2048 u c (by omega), h2 u c (by omega), emb_chunk 2048 j2048 u c (by omega)]
      rfl
    · obtain ⟨u, c, rfl⟩ : ∃ (u : Fin 1) (c : Fin 1024), x = ix2 u c := ⟨x 0, x 1, eq_ix2 x⟩
      dsimp only
      rw [pay12_eq, colPieceOver X Y pv1 1024 i1024 u c (by omega), h1 u c (by omega), emb_chunk 1024 j1024 u c (by omega)]
      rfl
    · obtain ⟨u, c, rfl⟩ : ∃ (u : Fin 1) (c : Fin 1024), x = ix2 u c := ⟨x 0, x 1, eq_ix2 x⟩
      dsimp only
      rw [pay9_eq, colPieceOver X Y pv0 0 i0 u c (by omega), h0 u c (by omega), emb_chunk 0 j0 u c (by omega)]
      rfl
  · obtain ⟨u, q, rfl⟩ : ∃ (u : Fin 1) (q : Fin 4096), y = ix2 u q := ⟨y 0, y 1, eq_ix2 y⟩
    have hq := q.isLt
    by_cases c3 : 3072 ≤ q.val
    · refine ⟨_, List.mem_cons_self, ?_⟩
      show ix2 u q ∈ (Rect.unit (s := S1x4096) ![0, 3072] ![1, 1024] j3072).set
      rw [Rect.mem_set_unit]
      intro a
      match a with
      | ⟨0, _⟩ => show 0 ≤ u.val ∧ u.val < 0 + 1; omega
      | ⟨1, _⟩ => show 3072 ≤ q.val ∧ q.val < 3072 + 1024; omega
    by_cases c2 : 2048 ≤ q.val
    · refine ⟨_, List.mem_cons_of_mem _ List.mem_cons_self, ?_⟩
      show ix2 u q ∈ (Rect.unit (s := S1x4096) ![0, 2048] ![1, 1024] j2048).set
      rw [Rect.mem_set_unit]
      intro a
      match a with
      | ⟨0, _⟩ => show 0 ≤ u.val ∧ u.val < 0 + 1; omega
      | ⟨1, _⟩ => show 2048 ≤ q.val ∧ q.val < 2048 + 1024; omega
    by_cases c1 : 1024 ≤ q.val
    · refine ⟨_, List.mem_cons_of_mem _ (List.mem_cons_of_mem _ List.mem_cons_self), ?_⟩
      show ix2 u q ∈ (Rect.unit (s := S1x4096) ![0, 1024] ![1, 1024] j1024).set
      rw [Rect.mem_set_unit]
      intro a
      match a with
      | ⟨0, _⟩ => show 0 ≤ u.val ∧ u.val < 0 + 1; omega
      | ⟨1, _⟩ => show 1024 ≤ q.val ∧ q.val < 1024 + 1024; omega
    · refine ⟨_, List.mem_cons_of_mem _ (List.mem_cons_of_mem _ (List.mem_cons_of_mem _ List.mem_cons_self)), ?_⟩
      show ix2 u q ∈ (Rect.unit (s := S1x4096) ![0, 0] ![1, 1024] j0).set
      rw [Rect.mem_set_unit]
      intro a
      match a with
      | ⟨0, _⟩ => show 0 ≤ u.val ∧ u.val < 0 + 1; omega
      | ⟨1, _⟩ => show 0 ≤ q.val ∧ q.val < 0 + 1024; omega

/-- The same with nothing stored before the four chunks. -/
theorem canon_sweep4 (X : Vec Ideal S1x1024x32 .f32) (Y : Vec Ideal S1x4096x32 .f32) (prev : Vec Ideal S1x4096 .f32)
    (i0 : ∀ a, (![0, 0, 0] : Fin 3 → ℕ) a + (![1, 1024, 32] : Fin 3 → ℕ) a ≤ S1x4096x32.size a) (i1024 : ∀ a, (![0, 1024, 0] : Fin 3 → ℕ) a + (![1, 1024, 32] : Fin 3 → ℕ) a ≤ S1x4096x32.size a)
    (i2048 : ∀ a, (![0, 2048, 0] : Fin 3 → ℕ) a + (![1, 1024, 32] : Fin 3 → ℕ) a ≤ S1x4096x32.size a) (i3072 : ∀ a, (![0, 3072, 0] : Fin 3 → ℕ) a + (![1, 1024, 32] : Fin 3 → ℕ) a ≤ S1x4096x32.size a)
    (j0 : ∀ a, (![0, 0] : Fin 2 → ℕ) a + (![1, 1024] : Fin 2 → ℕ) a ≤ S1x4096.size a) (j1024 : ∀ a, (![0, 1024] : Fin 2 → ℕ) a + (![1, 1024] : Fin 2 → ℕ) a ≤ S1x4096.size a)
    (j2048 : ∀ a, (![0, 2048] : Fin 2 → ℕ) a + (![1, 1024] : Fin 2 → ℕ) a ≤ S1x4096.size a) (j3072 : ∀ a, (![0, 3072] : Fin 2 → ℕ) a + (![1, 1024] : Fin 2 → ℕ) a ≤ S1x4096.size a)
    (pv0 pv1 pv2 pv3 : Vec Ideal S1x1024 .f32)
    (h0 : ∀ (u : Fin 1) (c : Fin 1024) (h : 0 + c.val < 4096), pv0 (ix2 u c) = prev (ix2 (0 : Fin 1) ⟨0 + c.val, h⟩))
    (h1 : ∀ (u : Fin 1) (c : Fin 1024) (h : 1024 + c.val < 4096), pv1 (ix2 u c) = prev (ix2 (0 : Fin 1) ⟨1024 + c.val, h⟩))
    (h2 : ∀ (u : Fin 1) (c : Fin 1024) (h : 2048 + c.val < 4096), pv2 (ix2 u c) = prev (ix2 (0 : Fin 1) ⟨2048 + c.val, h⟩))
    (h3 : ∀ (u : Fin 1) (c : Fin 1024) (h : 3072 + c.val < 4096), pv3 (ix2 u c) = prev (ix2 (0 : Fin 1) ⟨3072 + c.val, h⟩)) :
    View.canon
      [(⟨(Rect.unit (s := S1x4096) ![0, 3072] ![1, 1024] j3072), k0_pay17 (F := Ideal) (k0_pay4 X) (k0_pay5 X) (View.ld Y (Rect.unit (s := S1x4096x32) ![0, 3072, 0] ![1, 1024, 32] i3072)) pv3⟩ : View.Piece (Elt Ideal) S1x4096 .f32),
        ⟨(Rect.unit (s := S1x4096) ![0, 2048] ![1, 1024] j2048), k0_pay15 (F := Ideal) (k0_pay13 (k0_pay4 X) (k0_pay5 X) (View.ld Y (Rect.unit (s := S1x4096x32) ![0, 2048, 0] ![1, 1024, 32] i2048))) pv2⟩,
        ⟨(Rect.unit (s := S1x4096) ![0, 1024] ![1, 1024] j1024), k0_pay12 (F := Ideal) (k0_pay4 X) (k0_pay5 X) (View.ld Y (Rect.unit (s := S1x4096x32) ![0, 1024, 0] ![1, 1024, 32] i1024)) pv1⟩,
        ⟨(Rect.unit (s := S1x4096) ![0, 0] ![1, 1024] j0), k0_pay9 (F := Ideal) X (View.ld Y (Rect.unit (s := S1x4096x32) ![0, 0, 0] ![1, 1024, 32] i0)) pv0⟩]
      = colStep X Y prev :=
  (congrArg View.canon (List.append_nil _).symm).trans
    (canon_sweep X Y prev i0 i1024 i2048 i3072 j0 j1024 j2048 j3072 pv0 pv1 pv2 pv3 h0 h1 h2 h3 [])

/-- Reading the whole buffer through its own rectangle is reading it. -/
theorem idx_whole (inb : ∀ a, (![0, 0] : Fin 2 → ℕ) a + (![1, 4096] : Fin 2 → ℕ) a ≤ S1x4096.size a) (y : S1x4096.Idx) :
    (Rect.unit (s := S1x4096) ![0, 0] ![1, 4096] inb).toLoadRect.idx y = y :=
  funext fun a => Fin.ext (by
    match a with
    | ⟨0, _⟩ => show 0 + 1 * (y 0).val = (y 0).val; omega
    | ⟨1, _⟩ => show 0 + 1 * (y 1).val = (y 1).val; omega)

/-! ## The three cases of the body -/

/-- Case A: the row block. -/
theorem row_A (c : Dev nD) (i : grid0.Coords) (arg2 : Memref sig .tc .vmem S1x1024x32 .f32) (harg2 : arg2.IsWhole) (arg3 : Memref sig .tc .vmem S1x4096x32 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i)
    (x0 : Vec Ideal S1x1024x32 .f32) (x1 : Vec Ideal S1x4096x32 .f32)  :
    out0_A_2 (F := Ideal) c i arg2 harg2 arg3 harg3 arg4 harg4 arg5 harg5 arg6 harg6 hc0 hc1 x0 x1 = rowVal x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  sl_unfold_words
  simp only [View.readAt_eq_ld, harg2.read_unread, harg3.read_unread, harg6.read_unread, View.ld_unit_zero (S := S1x1024x32) hz3]
  rw [View.canon_unit_zero hz3]
  funext j
  obtain ⟨u0, u1, r, rfl⟩ : ∃ (u0 u1 : Fin 1) (r : Fin 1024), j = ix3 u0 u1 r := ⟨j 0, j 1, j 2, eq_ix3 j⟩
  exact rowPiece x0 x1 _ _ _ _ u0 u1 r

/-- Case B: the row block. -/
theorem row_B (c : Dev nD) (i : grid0.Coords) (arg2 : Memref sig .tc .vmem S1x1024x32 .f32) (harg2 : arg2.IsWhole) (arg3 : Memref sig .tc .vmem S1x4096x32 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i)
    (x0 : Vec Ideal S1x1024x32 .f32) (x1 : Vec Ideal S1x4096x32 .f32) (xs0 : Vec Ideal S1x4096 .f32) :
    out0_B_2 (F := Ideal) c i arg2 harg2 arg3 harg3 arg4 harg4 arg5 harg5 arg6 harg6 hc0 hc1 x0 x1 xs0 = rowVal x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  sl_unfold_words
  simp only [View.readAt_eq_ld, harg2.read_unread, harg3.read_unread, harg6.read_unread, View.ld_unit_zero (S := S1x1024x32) hz3]
  rw [View.canon_unit_zero hz3]
  funext j
  obtain ⟨u0, u1, r, rfl⟩ : ∃ (u0 u1 : Fin 1) (r : Fin 1024), j = ix3 u0 u1 r := ⟨j 0, j 1, j 2, eq_ix3 j⟩
  exact rowPiece x0 x1 _ _ _ _ u0 u1 r

/-- Case C: the row block. -/
theorem row_C (c : Dev nD) (i : grid0.Coords) (arg2 : Memref sig .tc .vmem S1x1024x32 .f32) (harg2 : arg2.IsWhole) (arg3 : Memref sig .tc .vmem S1x4096x32 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec Ideal S1x1024x32 .f32) (x1 : Vec Ideal S1x4096x32 .f32) (xs0 : Vec Ideal S1x4096 .f32) :
    out0_C_2 (F := Ideal) c i arg2 harg2 arg3 harg3 arg4 harg4 arg5 harg5 arg6 harg6 hc0 hc1 x0 x1 xs0 = rowVal x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  simp only [View.readAt_eq_ld, harg2.read_unread, harg3.read_unread, harg6.read_unread, View.ld_unit_zero (S := S1x1024x32) hz3]
  rw [View.canon_unit_zero hz3]
  funext j
  obtain ⟨u0, u1, r, rfl⟩ : ∃ (u0 u1 : Fin 1) (r : Fin 1024), j = ix3 u0 u1 r := ⟨j 0, j 1, j 2, eq_ix3 j⟩
  exact rowPiece x0 x1 _ _ _ _ u0 u1 r

/-- Case B: the carried column minimum, lowered from what the point before left. -/
theorem scratch_B (c : Dev nD) (i : grid0.Coords) (arg2 : Memref sig .tc .vmem S1x1024x32 .f32) (harg2 : arg2.IsWhole) (arg3 : Memref sig .tc .vmem S1x4096x32 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i)
    (x0 : Vec Ideal S1x1024x32 .f32) (x1 : Vec Ideal S1x4096x32 .f32) (xs0 : Vec Ideal S1x4096 .f32) :
    sout0_B_0 (F := Ideal) c i arg2 harg2 arg3 harg3 arg4 harg4 arg5 harg5 arg6 harg6 hc0 hc1 x0 x1 xs0 = colStep x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  simp only [View.readAt_eq_ld, harg2.read_unread, harg3.read_unread, harg6.read_unread, View.ld_unit_zero (S := S1x1024x32) hz3]
  exact canon_sweep4 x0 x1 xs0 _ _ _ _ _ _ _ _ _ _ _ _
    (fun u c h => scratchChunk_apply xs0 0 _ u c h) (fun u c h => scratchChunk_apply xs0 1024 _ u c h)
    (fun u c h => scratchChunk_apply xs0 2048 _ u c h) (fun u c h => scratchChunk_apply xs0 3072 _ u c h)

/-- Case C: the carried column minimum, lowered from what the point before left. -/
theorem scratch_C (c : Dev nD) (i : grid0.Coords) (arg2 : Memref sig .tc .vmem S1x1024x32 .f32) (harg2 : arg2.IsWhole) (arg3 : Memref sig .tc .vmem S1x4096x32 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec Ideal S1x1024x32 .f32) (x1 : Vec Ideal S1x4096x32 .f32) (xs0 : Vec Ideal S1x4096 .f32) :
    sout0_C_0 (F := Ideal) c i arg2 harg2 arg3 harg3 arg4 harg4 arg5 harg5 arg6 harg6 hc0 hc1 x0 x1 xs0 = colStep x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  simp only [View.readAt_eq_ld, harg2.read_unread, harg3.read_unread, harg6.read_unread, View.ld_unit_zero (S := S1x1024x32) hz3]
  exact canon_sweep4 x0 x1 xs0 _ _ _ _ _ _ _ _ _ _ _ _
    (fun u c h => scratchChunk_apply xs0 0 _ u c h) (fun u c h => scratchChunk_apply xs0 1024 _ u c h)
    (fun u c h => scratchChunk_apply xs0 2048 _ u c h) (fun u c h => scratchChunk_apply xs0 3072 _ u c h)

/-- Case A: the carried column minimum is reset to +∞ first, so it is lowered from +∞. -/
theorem scratch_A (c : Dev nD) (i : grid0.Coords) (arg2 : Memref sig .tc .vmem S1x1024x32 .f32) (harg2 : arg2.IsWhole) (arg3 : Memref sig .tc .vmem S1x4096x32 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i)
    (x0 : Vec Ideal S1x1024x32 .f32) (x1 : Vec Ideal S1x4096x32 .f32) :
    sout0_A_0 (F := Ideal) c i arg2 harg2 arg3 harg3 arg4 harg4 arg5 harg5 arg6 harg6 hc0 hc1 x0 x1 = colStep x0 x1 (fun _ => ⊤) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  simp only [View.readAt_eq_ld, harg2.read_unread, harg3.read_unread, harg6.read_unread, View.ld_unit_zero (S := S1x1024x32) hz3]
  refine canon_sweep x0 x1 (fun _ => ⊤) _ _ _ _ _ _ _ _ _ _ _ _ ?_ ?_ ?_ ?_ [_]
  · intro u c h
    rw [View.readCov_eq_canon']
    show View.canon _ ((Rect.unit (s := S1x4096) ![0, 0] ![1, 1024] _).toLoadRect.idx (ix2 u c)) = ⊤
    rw [View.canon_unit_zero hz2]
    exact reset_apply _
  · intro u c h
    rw [View.readCov_eq_canon']
    show View.canon _ ((Rect.unit (s := S1x4096) ![0, 1024] ![1, 1024] _).toLoadRect.idx (ix2 u c)) = ⊤
    rw [canon_skip 1024 0 _ _ _ _ u c (by omega), View.canon_unit_zero hz2]
    exact reset_apply _
  · intro u c h
    rw [View.readCov_eq_canon']
    show View.canon _ ((Rect.unit (s := S1x4096) ![0, 2048] ![1, 1024] _).toLoadRect.idx (ix2 u c)) = ⊤
    rw [canon_skip 2048 1024 _ _ _ _ u c (by omega), canon_skip 2048 0 _ _ _ _ u c (by omega), View.canon_unit_zero hz2]
    exact reset_apply _
  · intro u c h
    rw [View.readCov_eq_canon']
    show View.canon _ ((Rect.unit (s := S1x4096) ![0, 3072] ![1, 1024] _).toLoadRect.idx (ix2 u c)) = ⊤
    rw [canon_skip 3072 2048 _ _ _ _ u c (by omega), canon_skip 3072 1024 _ _ _ _ u c (by omega),
      canon_skip 3072 0 _ _ _ _ u c (by omega), View.canon_unit_zero hz2]
    exact reset_apply _

/-- Case C: the column block is the clamped root of the carried column minimum just written. -/
theorem col_C (c : Dev nD) (i : grid0.Coords) (arg2 : Memref sig .tc .vmem S1x1024x32 .f32) (harg2 : arg2.IsWhole) (arg3 : Memref sig .tc .vmem S1x4096x32 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec Ideal S1x1024x32 .f32) (x1 : Vec Ideal S1x4096x32 .f32) (xs0 : Vec Ideal S1x4096 .f32) :
    out0_C_3 (F := Ideal) c i arg2 harg2 arg3 harg3 arg4 harg4 arg5 harg5 arg6 harg6 hc0 hc1 x0 x1 xs0 = colVal (colStep x0 x1 xs0) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  simp only [View.readAt_eq_ld, harg2.read_unread, harg3.read_unread, harg6.read_unread, View.ld_unit_zero (S := S1x1024x32) hz3]
  rw [View.canon_unit_zero hz3, View.readCov_eq_canon']
  funext j
  obtain ⟨u0, u1, q, rfl⟩ : ∃ (u0 u1 : Fin 1) (q : Fin 4096), j = ix3 u0 u1 q := ⟨j 0, j 1, j 2, eq_ix3 j⟩
  refine (colOut_apply _ u0 u1 q).trans ?_
  unfold colVal
  refine congrArg clampRoot ?_
  show View.canon _ ((Rect.unit (s := S1x4096) ![0, 0] ![1, 4096] _).toLoadRect.idx (ix2 (0 : Fin 1) q)) = _
  rw [idx_whole]
  exact congrFun (canon_sweep4 x0 x1 xs0 _ _ _ _ _ _ _ _ _ _ _ _
    (fun u c h => scratchChunk_apply xs0 0 _ u c h) (fun u c h => scratchChunk_apply xs0 1024 _ u c h)
    (fun u c h => scratchChunk_apply xs0 2048 _ u c h) (fun u c h => scratchChunk_apply xs0 3072 _ u c h)) _

end Cert.Chamfer.Pieces

end
-- ==== Proof.Invariant.lean ====
/-
  What the outputs hold after each grid point, by induction on the point.

  Grid point t is tile i = t mod 4 of batch n = t div 4.  Its two input blocks are rows 1024·i … of the first cloud
  and the whole second cloud of batch n, so the squared distances it forms are those of the spec.  Its row block is
  therefore the distances of those rows to the second cloud.  The carried column minimum is characterized by what
  it bounds: after tile i of batch n, a number is below its entry q exactly when it is below the squared distance
  from every one of the first 1024·(i + 1) points of the first cloud to point q — at the first tile it starts from
  +∞, afterwards from what the tile before left.  After the last tile that is the least squared distance over the
  whole first cloud, and the column block is its clamped root.
-/
import proofs.«108786_j8254927143420_2_alg».proof.Proof.KSpec
import proofs.«108786_j8254927143420_2_alg».proof.Proof.Pieces

set_option maxRecDepth 16384

noncomputable section

namespace Cert.Chamfer.K

open Idealize.ShloMosaic Idealize.ShloMosaic.TcCoe Idealize.ShloMosaic.ValueIdx Idealize.SL.Sem
open Cert.KernelIdeal Cert.KernelIdeal.Gen Cert.Chamfer Cert.Chamfer.Point Cert.Chamfer.Pieces

variable (m : (ℓ : Loc nD τ sig) → Buf (Elt Ideal) ℓ)

/-! ## The input blocks are pieces of the clouds -/

/-- The first input's block index at point t: batch t div 4, tile t mod 4. -/
theorem index_x : ∀ t : Fin cfg0.N,
    win0_0.index t (0 : Fin 3) = t.val / 4 ∧ win0_0.index t (1 : Fin 3) = t.val % 4 ∧ win0_0.index t (2 : Fin 3) = 0 :=
  (by decide +kernel : ∀ t : Fin grid0.N,
    win0_0.index t (0 : Fin 3) = t.val / 4 ∧ win0_0.index t (1 : Fin 3) = t.val % 4 ∧ win0_0.index t (2 : Fin 3) = 0)

/-- The second input's block index at point t: batch t div 4, the whole cloud. -/
theorem index_y : ∀ t : Fin cfg0.N,
    win0_1.index t (0 : Fin 3) = t.val / 4 ∧ win0_1.index t (1 : Fin 3) = 0 ∧ win0_1.index t (2 : Fin 3) = 0 :=
  (by decide +kernel : ∀ t : Fin grid0.N,
    win0_1.index t (0 : Fin 3) = t.val / 4 ∧ win0_1.index t (1 : Fin 3) = 0 ∧ win0_1.index t (2 : Fin 3) = 0)

theorem xblk_apply (c : Dev nD) (t : Fin cfg0.N) (r : Fin 1024) (d : Fin 32) :
    (iblk m c 0 t : Vec Ideal S1x1024x32 .f32) (ix3 (0 : Fin 1) r d) = cx m c (ix3 (batchOf t) (rowOf t r) d) := by
  obtain ⟨h0, h1, h2⟩ := index_x t
  unfold iblk cx
  rw [View.read_apply]
  show V m c main_arg0 _ = V m c main_arg0 _
  refine congrArg (V m c main_arg0) (funext fun a => Fin.ext ?_)
  match a with
  | ⟨0, _⟩ => show win0_0.index t 0 * 1 + 1 * 0 = t.val / 4; rw [h0]; omega
  | ⟨1, _⟩ => show win0_0.index t 1 * 1024 + 1 * r.val = 1024 * (t.val % 4) + r.val; rw [h1]; omega
  | ⟨2, _⟩ => show win0_0.index t 2 * 32 + 1 * d.val = d.val; rw [h2]; omega

theorem yblk_apply (c : Dev nD) (t : Fin cfg0.N) (q : Fin 4096) (d : Fin 32) :
    (iblk m c 1 t : Vec Ideal S1x4096x32 .f32) (ix3 (0 : Fin 1) q d) = cy m c (ix3 (batchOf t) q d) := by
  obtain ⟨h0, h1, h2⟩ := index_y t
  unfold iblk cy
  rw [View.read_apply]
  show V m c main_arg1 _ = V m c main_arg1 _
  refine congrArg (V m c main_arg1) (funext fun a => Fin.ext ?_)
  match a with
  | ⟨0, _⟩ => show win0_1.index t 0 * 1 + 1 * 0 = t.val / 4; rw [h0]; omega
  | ⟨1, _⟩ => show win0_1.index t 1 * 4096 + 1 * q.val = q.val; rw [h1]; omega
  | ⟨2, _⟩ => show win0_1.index t 2 * 32 + 1 * d.val = d.val; rw [h2]; omega

/-- So the squared distances a point forms are the spec's, at its batch and rows. -/
theorem tsq_blk (c : Dev nD) (t : Fin cfg0.N) (r : Fin 1024) (q : Fin 4096) :
    tsq (iblk m c 0 t) (iblk m c 1 t) r q = sqd (cx m c) (cy m c) (batchOf t) (rowOf t r) q := by
  unfold tsq sqd
  refine congrArg₂ (· - ·) (congrArg₂ (· + ·) ?_ ?_) (congrArg₂ (· * ·) rfl ?_)
  · exact Finset.sum_congr rfl fun d _ => by rw [xblk_apply]
  · exact Finset.sum_congr rfl fun d _ => by rw [yblk_apply]
  · exact Finset.sum_congr rfl fun d _ => by rw [xblk_apply, yblk_apply]

/-! ## The row blocks -/

theorem rowVal_blk (c : Dev nD) (t : Fin cfg0.N) : rowVal (iblk m c 0 t) (iblk m c 1 t) = rowBlk m c t := by
  funext j
  unfold rowVal rowBlk rowDist
  exact congrArg clampRoot (Finset.fold_congr fun q _ => tsq_blk m c t _ q)

/-- After every point, the row block holds the distances of the point's rows to the second cloud. -/
theorem outs_row (c : Dev nD) (t : Fin cfg0.N) : (outsAt0 m c t.val t.isLt).1 = rowBlk m c t := by
  by_cases h0 : t.val % 4 = 0
  · have h1 : ¬t.val % 4 = 3 := by omega
    rw [outsAt0_A m c t h0 h1]
    dsimp only
    exact (row_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)).trans
      (rowVal_blk m c t)
  · by_cases h1 : t.val % 4 = 3
    · rw [outsAt0_C m c t h0 h1]
      dsimp only
      exact (row_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.2).trans (rowVal_blk m c t)
    · rw [outsAt0_B m c t h0 h1]
      dsimp only
      exact (row_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2.2).trans (rowVal_blk m c t)

/-! ## The carried column minimum -/

/-- A bound below an entry after the sweep: a bound below the prior entry and below every squared distance from
    the block. -/
theorem le_colStep_iff (X : Vec Ideal S1x1024x32 .f32) (Y : Vec Ideal S1x4096x32 .f32) (prev : Vec Ideal S1x4096 .f32)
    (q : Fin 4096) (z : EReal) :
    z ≤ colStep X Y prev (ix2 (0 : Fin 1) q) ↔ z ≤ prev (ix2 (0 : Fin 1) q) ∧ ∀ r : Fin 1024, z ≤ tsq X Y r q := by
  show z ≤ min (prev (ix2 (0 : Fin 1) q)) (Finset.univ.fold min ⊤ fun r : Fin 1024 => tsq X Y r q) ↔ _
  rw [le_min_iff, le_fold_min_top]
  simp only [Finset.mem_univ, forall_true_left]

/-- What the carried column minimum is after point t, in the three cases, as one statement. -/
theorem scratch_after (c : Dev nD) (t : Fin cfg0.N) :
    (outsAt0 m c t.val t.isLt).2.2
      = colStep (iblk m c 0 t) (iblk m c 1 t)
          (if t.val % 4 = 0 then (fun _ => ⊤)
           else (outsAt0 m c (t.val - 1) (Nat.lt_of_le_of_lt (Nat.sub_le _ _) t.isLt)).2.2) := by
  by_cases h0 : t.val % 4 = 0
  · have h1 : ¬t.val % 4 = 3 := by omega
    rw [if_pos h0, outsAt0_A m c t h0 h1]
    dsimp only
    exact scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · rw [if_neg h0]
    by_cases h1 : t.val % 4 = 3
    · rw [outsAt0_C m c t h0 h1]
      dsimp only
      exact scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.2
    · rw [outsAt0_B m c t h0 h1]
      dsimp only
      exact scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2.2

/-- One step of the invariant: if what the tile before left bounds exactly the squared distances from the rows
    before this tile's, then what this tile leaves bounds exactly those from the rows up to and including its own. -/
theorem colInv_step (c : Dev nD) (t : Fin cfg0.N) (q : Fin 4096) (z : EReal)
    (hprev : t.val % 4 ≠ 0 →
      (z ≤ (outsAt0 m c (t.val - 1) (Nat.lt_of_le_of_lt (Nat.sub_le _ _) t.isLt)).2.2 (ix2 (0 : Fin 1) q)
        ↔ ∀ p : Fin 4096, p.val < 1024 * (t.val % 4) → z ≤ sqd (cx m c) (cy m c) (batchOf t) p q)) :
    z ≤ (outsAt0 m c t.val t.isLt).2.2 (ix2 (0 : Fin 1) q)
      ↔ ∀ p : Fin 4096, p.val < 1024 * (t.val % 4 + 1) → z ≤ sqd (cx m c) (cy m c) (batchOf t) p q := by
  rw [scratch_after, le_colStep_iff]
  have hnew : (∀ r : Fin 1024, z ≤ tsq (iblk m c 0 t) (iblk m c 1 t) r q)
      ↔ ∀ p : Fin 4096, 1024 * (t.val % 4) ≤ p.val → p.val < 1024 * (t.val % 4 + 1) →
          z ≤ sqd (cx m c) (cy m c) (batchOf t) p q := by
    constructor
    · intro h p hlo hhi
      have hr := h ⟨p.val - 1024 * (t.val % 4), by omega⟩
      rw [tsq_blk] at hr
      exact (congrArg (fun k => z ≤ sqd (cx m c) (cy m c) (batchOf t) k q)
        (Fin.ext (by show 1024 * (t.val % 4) + (p.val - 1024 * (t.val % 4)) = p.val; omega))).mp hr
    · intro h r
      rw [tsq_blk]
      have hr := r.isLt
      exact h _ (by show 1024 * (t.val % 4) ≤ 1024 * (t.val % 4) + r.val; omega)
        (by show 1024 * (t.val % 4) + r.val < 1024 * (t.val % 4 + 1); omega)
  rw [hnew]
  by_cases h0 : t.val % 4 = 0
  · rw [if_pos h0]
    simp only [le_top, true_and]
    constructor
    · intro h p hp
      exact h p (by omega) hp
    · intro h p _ hp
      exact h p hp
  · rw [if_neg h0, hprev h0]
    constructor
    · rintro ⟨ha, hb⟩ p hp
      by_cases hlt : p.val < 1024 * (t.val % 4)
      · exact ha p hlt
      · exact hb p (by omega) hp
    · intro h
      exact ⟨fun p hp => h p (by omega), fun p _ hp => h p hp⟩

/-- THE INVARIANT of the carried column minimum, by induction on the grid point. -/
theorem colInv (c : Dev nD) : ∀ (n : ℕ) (hn : n < cfg0.N) (q : Fin 4096) (z : EReal),
    z ≤ (outsAt0 m c n hn).2.2 (ix2 (0 : Fin 1) q)
      ↔ ∀ p : Fin 4096, p.val < 1024 * (n % 4 + 1) → z ≤ sqd (cx m c) (cy m c) (batchOf ⟨n, hn⟩) p q := by
  intro n
  induction n with
  | zero =>
    intro hn q z
    exact colInv_step m c ⟨0, hn⟩ q z (fun h => absurd rfl h)
  | succ k ih =>
    intro hn q z
    refine colInv_step m c ⟨k + 1, hn⟩ q z (fun h0 => ?_)
    have h0' : (k + 1) % 4 ≠ 0 := h0
    have hk := ih (Nat.lt_of_succ_lt hn) q z
    have hb : batchOf ⟨k, Nat.lt_of_succ_lt hn⟩ = batchOf ⟨k + 1, hn⟩ :=
      Fin.ext (by show k / 4 = (k + 1) / 4; omega)
    have hm : k % 4 + 1 = (k + 1) % 4 := by omega
    rw [hb, hm] at hk
    exact hk

/-! ## The column block -/

/-- After the last tile of a batch, the column block holds the distances of the second cloud's points to the first. -/
theorem outs_col (c : Dev nD) (t : Fin cfg0.N) (h3 : t.val % 4 = 3) :
    (outsAt0 m c t.val t.isLt).2.1 = colBlk m c t := by
  have h0 : ¬t.val % 4 = 0 := by omega
  have hs := scratch_after m c t
  rw [if_neg h0] at hs
  rw [outsAt0_C m c t h0 h3]
  dsimp only
  refine (col_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t)
    (outsAt0 m c (t.val - 1) (Nat.lt_of_le_of_lt (Nat.sub_le _ _) t.isLt)).2.2).trans ?_
  rw [← hs]
  funext j
  obtain ⟨u0, u1, q, rfl⟩ : ∃ (u0 u1 : Fin 1) (q : Fin 4096), j = ix3 u0 u1 q := ⟨j 0, j 1, j 2, eq_ix3 j⟩
  unfold colVal colBlk colDist
  refine congrArg clampRoot (eq_of_forall_le_iff fun z => ?_)
  show z ≤ (outsAt0 m c t.val t.isLt).2.2 (ix2 (0 : Fin 1) q)
    ↔ z ≤ Finset.univ.fold min ⊤ fun p : Fin 4096 => sqd (cx m c) (cy m c) (batchOf t) p q
  rw [colInv m c t.val t.isLt q z, le_fold_min_top]
  simp only [Finset.mem_univ, forall_true_left]
  constructor
  · intro h p
    have hp := p.isLt
    exact h p (by omega)
  · intro h p _
    exact h p

end Cert.Chamfer.K

end
-- ==== Proof.Final.lean ====
/-
  From what each grid point leaves in its two output blocks to the program's result.

  The 32 grid points are (batch n, tile i) = (t div 4, t mod 4).  The row window's block at t is entries
  (n, 0, 1024·i …) of the row array and is written back at every point; the column window's block at t is the
  whole row (n, 0, ·) of the column array and is written back at the last tile of each batch.  Given that each
  point leaves the stated distances in its blocks, every entry of either array is written by exactly the point
  whose block holds it, so the arrays end as the full distance arrays.  The operations after the region drop the
  unit middle axis of both arrays and take the mean of the two means.
-/
import proofs.«108786_j8254927143420_2_alg».proof.Proof.KSpec
import Idealize.ShloMosaic.Lib.Pipeline.Value
import Idealize.ShloMosaic.Lib.StableHlo.Run
import Idealize.ShloMosaic.Lib.Tactic

noncomputable section

namespace Cert.Chamfer.K

open Idealize.ShloMosaic Idealize.ShloMosaic.TcCoe Idealize.SL.Sem
open Cert.KernelIdeal Cert.KernelIdeal.Gen Cert.Chamfer
open Idealize.ShloMosaic.Pipeline (Dat)

variable (m : (ℓ : Loc nD τ sig) → Buf (Elt Ideal) ℓ) (ρ : Dev nD → PrngReg)

/-! ## Where the blocks sit -/

/-- The row window's block at grid point t: batch t div 4, tile t mod 4 of the last axis. -/
theorem rowWin_index : ∀ t : Fin cfg0.N, win0_2.index t (0 : Fin 3) = t.val / 4 ∧ win0_2.index t (1 : Fin 3) = 0
    ∧ win0_2.index t (2 : Fin 3) = t.val % 4 :=
  (by decide +kernel : ∀ t : Fin grid0.N, _)

/-- The column window's block at grid point t: the whole row of batch t div 4. -/
theorem colWin_index : ∀ t : Fin cfg0.N, win0_3.index t (0 : Fin 3) = t.val / 4 ∧ win0_3.index t (1 : Fin 3) = 0
    ∧ win0_3.index t (2 : Fin 3) = 0 :=
  (by decide +kernel : ∀ t : Fin grid0.N, _)

/-! ## What a point writes back is a block of the full array

Entry y of a block sits at array coordinate (block index) × (block size) + y on each axis. -/

/-- What point t writes back of the row window is block t of the full row array: entry r of the block is the
    distance of point 1024·(t mod 4) + r of batch t div 4. -/
theorem flushed_row (c : Dev nD) (t : Fin cfg0.N) (hrow : (outsAt0 m c t.val t.isLt).1 = rowBlk m c t) :
    (dats m 0 c).flushed 2 t = ((cfg0.win 2).blk t).view.read (Elt Ideal) (rowFull m c) := by
  show (cfg0.win 2).cut (grid0.coords t) ((dats m 0 c).after 2 t) = _
  rw [after0_2, hrow]
  funext j
  show rowBlk m c t j = rowFull m c (((cfg0.win 2).blk t).view.emb j)
  unfold rowBlk rowFull
  obtain ⟨e0, e1, e2⟩ := rowWin_index t
  refine congrArg₂ (rowDist (cx m c) (cy m c)) (Fin.ext ?_) (Fin.ext ?_)
  · show t.val / 4 = win0_2.index t (0 : Fin 3) * 1 + 1 * (j 0).val
    have hj : (j 0).val < 1 := (j 0).isLt
    omega
  · show 1024 * (t.val % 4) + (j 2).val = win0_2.index t (2 : Fin 3) * 1024 + 1 * (j 2).val
    omega

/-- What a point t that writes the column window back writes is block t of the full column array: entry q of the
    block is the distance of point q of batch t div 4. -/
theorem flushed_col (c : Dev nD) (t : Fin cfg0.N) (hcol : (outsAt0 m c t.val t.isLt).2.1 = colBlk m c t) :
    (dats m 0 c).flushed 3 t = ((cfg0.win 3).blk t).view.read (Elt Ideal) (colFull m c) := by
  show (cfg0.win 3).cut (grid0.coords t) ((dats m 0 c).after 3 t) = _
  rw [after0_3, hcol]
  funext j
  show colBlk m c t j = colFull m c (((cfg0.win 3).blk t).view.emb j)
  unfold colBlk colFull
  obtain ⟨e0, e1, e2⟩ := colWin_index t
  refine congrArg₂ (colDist (cx m c) (cy m c)) (Fin.ext ?_) (Fin.ext ?_)
  · show t.val / 4 = win0_3.index t (0 : Fin 3) * 1 + 1 * (j 0).val
    have hj : (j 0).val < 1 := (j 0).isLt
    omega
  · show (j 2).val = win0_3.index t (2 : Fin 3) * 4096 + 1 * (j 2).val
    omega

/-! ## The blocks cover the arrays -/

/-- An index of the row array lies in point t's block iff each coordinate lies in the block's range on its axis. -/
theorem mem_rowBlk (t : Fin cfg0.N) (i : S8x1x4096.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v0_0).slice (win0_2.rect t)).set ↔ _
  rw [View.set_slice_whole, Rect.mem_set_unit]
  exact Iff.rfl

/-- The same for the column array, whose block is a whole row of a batch. -/
theorem mem_colBlk (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Every entry (n, 0, p) of the row array is written by the point 4·n + p div 1024, so the array ends as the full
    row array. -/
theorem final_row (c : Dev nD) (hrow : ∀ t : Fin cfg0.N, (outsAt0 m c t.val t.isLt).1 = rowBlk m c t) :
    (dats m 0 c).arrAt 2 cfg0.N = rowFull m c :=
  (dats m 0 c).arrAt_eq_of_cover 2 (rowFull m c) (fun t _ => flushed_row m c t (hrow t)) fun i => by
    have hN : cfg0.N = 32 := N_0
    have h0 : (i 0 : Nat) < 8 := (i 0).isLt
    have h1 : (i 1 : Nat) < 1 := (i 1).isLt
    have h2 : (i 2 : Nat) < 4096 := (i 2).isLt
    obtain ⟨t, ht⟩ : ∃ t : Fin cfg0.N, t.val = 4 * (i 0 : Nat) + (i 2 : Nat) / 1024 := ⟨⟨_, by omega⟩, rfl⟩
    refine ⟨t, flush0_2 t, (mem_rowBlk t i).mpr fun a => ?_⟩
    obtain ⟨e0, e1, e2⟩ := rowWin_index t
    match a with
    | ⟨0, _⟩ => show win0_2.index t (0 : Fin 3) * 1 ≤ (i 0 : Nat) ∧ (i 0 : Nat) < win0_2.index t (0 : Fin 3) * 1 + 1; omega
    | ⟨1, _⟩ => show win0_2.index t (1 : Fin 3) * 1 ≤ (i 1 : Nat) ∧ (i 1 : Nat) < win0_2.index t (1 : Fin 3) * 1 + 1; omega
    | ⟨2, _⟩ => show win0_2.index t (2 : Fin 3) * 1024 ≤ (i 2 : Nat) ∧ (i 2 : Nat) < win0_2.index t (2 : Fin 3) * 1024 + 1024; omega

/-- Every entry (n, 0, q) of the column array is written by the last point 4·n + 3 of its batch, so the array ends
    as the full column array. -/
theorem final_col (c : Dev nD) (hcol : ∀ t : Fin cfg0.N, t.val % 4 = 3 → (outsAt0 m c t.val t.isLt).2.1 = colBlk m c t) :
    (dats m 0 c).arrAt 3 cfg0.N = colFull m c :=
  (dats m 0 c).arrAt_eq_of_cover 3 (colFull m c) (fun t hf => flushed_col m c t (hcol t ((flush0_3 t).mp hf))) fun i => by
    have hN : cfg0.N = 32 := N_0
    have h0 : (i 0 : Nat) < 8 := (i 0).isLt
    have h1 : (i 1 : Nat) < 1 := (i 1).isLt
    have h2 : (i 2 : Nat) < 4096 := (i 2).isLt
    obtain ⟨t, ht⟩ : ∃ t : Fin cfg0.N, t.val = 4 * (i 0 : Nat) + 3 := ⟨⟨_, by omega⟩, rfl⟩
    refine ⟨t, (flush0_3 t).mpr (by omega), (mem_colBlk t i).mpr fun a => ?_⟩
    obtain ⟨e0, e1, e2⟩ := colWin_index t
    match a with
    | ⟨0, _⟩ => show win0_3.index t (0 : Fin 3) * 1 ≤ (i 0 : Nat) ∧ (i 0 : Nat) < win0_3.index t (0 : Fin 3) * 1 + 1; omega
    | ⟨1, _⟩ => show win0_3.index t (1 : Fin 3) * 1 ≤ (i 1 : Nat) ∧ (i 1 : Nat) < win0_3.index t (1 : Fin 3) * 1 + 1; omega
    | ⟨2, _⟩ => show win0_3.index t (2 : Fin 3) * 4096 ≤ (i 2 : Nat) ∧ (i 2 : Nat) < win0_3.index t (2 : Fin 3) * 4096 + 4096; omega

/-! ## The operations after the region -/

/-- Dropping the unit middle axis of the full row array gives the specification's row distances: entry (n, p) of
    the reshaped array is entry (n, 0, p), the same row-major position. -/
theorem cast_row (c : Dev nD) :
    shapeCast S8x4096 (rowFull m c) shapeCasts_S8x1x4096_S8x4096 = rowArr (cx m c) (cy m c) := by
  funext j
  obtain ⟨n, p, rfl⟩ : ∃ (n : Fin 8) (p : Fin 4096), j = ValueIdx.ix2 n p := ⟨j 0, j 1, ValueIdx.eq_ix2 j⟩
  refine (shapeCast_apply (rowFull m c) shapeCasts_S8x1x4096_S8x4096 (ValueIdx.ix2 n p)
    (ValueIdx.ix3 n (0 : Fin 1) p) ?_).trans ?_
  · rw [Shape.rowMajor_val_three, Shape.rowMajor_val_two]
    show (n.val * 1 + 0) * 4096 + p.val = n.val * 4096 + p.val
    omega
  · rfl

/-- The same for the full column array. -/
theorem cast_col (c : Dev nD) :
    shapeCast S8x4096 (colFull m c) shapeCasts_S8x1x4096_S8x4096 = colArr (cx m c) (cy m c) := by
  funext j
  obtain ⟨n, q, rfl⟩ : ∃ (n : Fin 8) (q : Fin 4096), j = ValueIdx.ix2 n q := ⟨j 0, j 1, ValueIdx.eq_ix2 j⟩
  refine (shapeCast_apply (colFull m c) shapeCasts_S8x1x4096_S8x4096 (ValueIdx.ix2 n q)
    (ValueIdx.ix3 n (0 : Fin 1) q) ?_).trans ?_
  · rw [Shape.rowMajor_val_three, Shape.rowMajor_val_two]
    show (n.val * 1 + 0) * 4096 + q.val = n.val * 4096 + q.val
    omega
  · rfl

/-- The mean of means of two reshaped arrays that are the full row and column arrays is the mean of means of the
    specification's two distance arrays. -/
theorem tail_eq (c : Dev nD) (W0 W1 : S8x1x4096.Idx → EReal) (e0 : W0 = rowFull m c) (e1 : W1 = colFull m c) :
    meanOfMeans reducesTo_S8x4096_S8_d1 h_S_ bcast_S_S8
        (shapeCast S8x4096 W0 shapeCasts_S8x1x4096_S8x4096) (shapeCast S8x4096 W1 shapeCasts_S8x1x4096_S8x4096)
      = meanOfMeans reducesTo_S8x4096_S8_d1 h_S_ bcast_S_S8 (rowArr (cx m c) (cy m c)) (colArr (cx m c) (cy m c)) := by
  subst e0 e1
  rw [cast_row, cast_col]

/-! ## The run -/

/-- Every execution of the program ends with the result at the mean of means of the two distance arrays of the
    clouds as the region finds them, and the two arguments unchanged. -/
theorem run (hrow : ∀ (c : Dev nD) (t : Fin cfg0.N), (outsAt0 m c t.val t.isLt).1 = rowBlk m c t)
    (hcol : ∀ (c : Dev nD) (t : Fin cfg0.N), t.val % 4 = 3 → (outsAt0 m c t.val t.isLt).2.1 = colBlk m c t) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v11)
          = meanOfMeans reducesTo_S8x4096_S8_d1 h_S_ bcast_S_S8 (rowArr (cx m c) (cy m c)) (colArr (cx m c) (cy m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)
  refine ((h c).2 main_v11 (Pipeline.mem_restRefs_of main_v11 (by decide) (by decide))).trans ?_
  unfold Pipeline.afterTail₀
  show StableHlo.after hostOps1 _ (Proc.devRef .tc main_v11) = _
  after_results
  exact tail_eq m c _ _
    ((Pipeline.withArrays_arr spec0 launch0.win.arr_inj c _ _ 2).trans (final_row m c (hrow c)))
    ((Pipeline.withArrays_arr spec0 launch0.win.arr_inj c _ _ 3).trans (final_col m c (hcol c)))

end Cert.Chamfer.K

end
-- ==== Proof.RefSide.lean ====
/-
  The reference program computes the specification's two distance arrays and their mean of means.

  For clouds x, y (8 batches × 4096 points × 32 coordinates) the reference forms, at every (n, p, q),
  the expanded squared distance  (0 + Σ_d x²) + (0 + Σ_d y²) − 2·Σ_d x·y,  clamps it at 0 and takes the root;
  this is  clampRoot (sqd x y n p q)  once the two zero initial values of the sums are dropped.  Its two
  minimum-reductions, each started from +∞, are then the minimum over q (resp. over p) of these roots, which
  is the specification's row (resp. column) distance in the form "least of the roots" (rowDist_eq, colDist_eq).
  The last operations (sum over the points, divide by 4096, add, divide by 2) are literally meanOfMeans.
-/
import proofs.«108786_j8254927143420_2_alg».proof.Proof.Gen.ReferenceIdeal.Read
import proofs.«108786_j8254927143420_2_alg».proof.Proof.Spec
import Idealize.ShloMosaic.PureOps.Ideal.Laws

noncomputable section

namespace Cert.Chamfer.Ref

open Cert.ReferenceIdeal Cert.ReferenceIdeal.Gen Cert.ReferenceIdeal.Read
open Idealize.ShloMosaic Idealize.ShloMosaic.ValueIdx

/-! ## Where each operand is read

At the entry (n, p, q) of the 8×4096×4096 array, the contraction reads x at (n, p, k) and y at (n, q, k); the
broadcast squared norms read x at (n, p, k) and y at (n, q, k) as well. -/

/-- The contraction's left operand at (n, p, q), term k, is x at (n, p, k). -/
theorem lidx_eq (n : Fin 8) (p q : Fin 4096) (k : Fin 32) :
    lidx_main_v4 (ix3 n p q) k = ix3 n p k := by
  funext a; match a with | ⟨0, _⟩ => rfl | ⟨1, _⟩ => rfl | ⟨2, _⟩ => rfl

/-- The contraction's right operand at (n, p, q), term k, is y at (n, q, k). -/
theorem ridx_eq (n : Fin 8) (p q : Fin 4096) (k : Fin 32) :
    ridx_main_v4 (ix3 n p q) k = ix3 n q k := by
  funext a; match a with | ⟨0, _⟩ => rfl | ⟨1, _⟩ => rfl | ⟨2, _⟩ => rfl

/-- |x_p|² broadcast along q: at (n, p, q) its term k is read at (n, p, k). -/
theorem xidx_eq (n : Fin 8) (p q : Fin 4096) (k : Fin 32) :
    idx_main_v1 (idx_main_v5 (idx_main_v7 (ix3 n p q))) k = ix3 n p k := by
  funext a; match a with | ⟨0, _⟩ => rfl | ⟨1, _⟩ => rfl | ⟨2, _⟩ => rfl

/-- |y_q|² broadcast along p: at (n, p, q) its term k is read at (n, q, k). -/
theorem yidx_eq (n : Fin 8) (p q : Fin 4096) (k : Fin 32) :
    idx_main_v3 (idx_main_v6 (idx_main_v8 (ix3 n p q))) k = ix3 n q k := by
  funext a; match a with | ⟨0, _⟩ => rfl | ⟨1, _⟩ => rfl | ⟨2, _⟩ => rfl

/-! ## The distance matrix, entry by entry -/

/-- The entry (n, p, q) of the reference's distance matrix is the root of the clamped expanded squared distance:
    the sums' zero initial values disappear (0 + s = s), and what is left is the specification's term. -/
theorem v15_at (x0 x1 : (⟨S8x4096x32, .f32⟩ : BufTy).Contents (Elt Ideal)) (n : Fin 8) (p q : Fin 4096) :
    val_main_v15 (F := Ideal) x0 x1 (ix3 n p q) = clampRoot (sqd x0 x1 n p q) := by
  rw [val_main_v15_apply, val_main_v14_apply, val_main_v12_apply, val_main_v13_apply, val_main_cst_2_apply,
    val_main_v9_apply, val_main_v11_apply, val_main_v7_apply, val_main_v8_apply, val_main_v10_apply,
    val_main_cst_1_apply, val_main_v4_apply, val_main_v5_apply, val_main_v6_apply, val_main_v1_apply,
    val_main_v3_apply, val_main_cst_apply, val_main_cst_0_apply]
  simp only [val_main_v0_apply, val_main_v2_apply, lidx_eq, ridx_eq, xidx_eq, yidx_eq,
    Ideal.hostUnary_sqrt_def, Ideal.maximumf_def, Ideal.subf_def, Ideal.addf_def, Ideal.mulf_def, Ideal.ofBits_def,
    Ideal.ofBits_zero_f32, zero_add, clampRoot, sqd]

/-! ## The two minimum-reductions

A reduction over one axis is, at a result index, the fold of the operation from the initial value over that
axis's coordinates, the result index completed by the coordinate. -/

/-- Completing (n, p) by the coordinate q on the last axis gives (n, p, q). -/
theorem lift2_eq (h : S8x4096x4096.Reduces [2] S8x4096) (n : Fin 8) (p q : Fin 4096) :
    h.lift (ix2 n p) q = ix3 n p q := by
  funext c
  apply Fin.ext
  match c with | ⟨0, _⟩ => rfl | ⟨1, _⟩ => rfl | ⟨2, _⟩ => rfl

/-- Completing (n, q) by the coordinate p on the middle axis gives (n, p, q). -/
theorem lift1_eq (h : S8x4096x4096.Reduces [1] S8x4096) (n : Fin 8) (q p : Fin 4096) :
    h.lift (ix2 n q) p = ix3 n p q := by
  funext c
  apply Fin.ext
  match c with | ⟨0, _⟩ => rfl | ⟨1, _⟩ => rfl | ⟨2, _⟩ => rfl

/-- The minimum over q, from +∞, of the distances from point p of x: the specification's row distances. -/
theorem v16_eq (x0 x1 : (⟨S8x4096x32, .f32⟩ : BufTy).Contents (Elt Ideal)) :
    val_main_v16 (F := Ideal) x0 x1 = rowArr x0 x1 := by
  funext j
  obtain ⟨n, p, rfl⟩ : ∃ (n : Fin 8) (p : Fin 4096), j = ix2 n p := ⟨j 0, j 1, eq_ix2 j⟩
  have h : S8x4096x4096.Reduces [2] S8x4096 := by decide
  unfold val_main_v16
  refine (Host.reduce_eq_fold_single FloatOps.minimumf _ _ reducesTo_S8x4096x4096_S8x4096_d2 h h_S_ (ix2 n p)).trans ?_
  rw [val_main_cst_3_apply, Ideal.ofBits_def, ofBits_inf]
  show Finset.univ.fold min ⊤ (fun q : Fin 4096 => val_main_v15 (F := Ideal) x0 x1 (h.lift (ix2 n p) q)) = rowDist x0 x1 n p
  rw [rowDist_eq]
  exact Finset.fold_congr fun q _ => (congrArg _ (lift2_eq h n p q)).trans (v15_at x0 x1 n p q)

/-- The minimum over p, from +∞, of the distances to point q of y: the specification's column distances. -/
theorem v20_eq (x0 x1 : (⟨S8x4096x32, .f32⟩ : BufTy).Contents (Elt Ideal)) :
    val_main_v20 (F := Ideal) x0 x1 = colArr x0 x1 := by
  funext j
  obtain ⟨n, q, rfl⟩ : ∃ (n : Fin 8) (q : Fin 4096), j = ix2 n q := ⟨j 0, j 1, eq_ix2 j⟩
  have h : S8x4096x4096.Reduces [1] S8x4096 := by decide
  unfold val_main_v20
  refine (Host.reduce_eq_fold_single FloatOps.minimumf _ _ reducesTo_S8x4096x4096_S8x4096_d1 h h_S_ (ix2 n q)).trans ?_
  rw [val_main_cst_6_apply, Ideal.ofBits_def, ofBits_inf]
  show Finset.univ.fold min ⊤ (fun p : Fin 4096 => val_main_v15 (F := Ideal) x0 x1 (h.lift (ix2 n q) p)) = colDist x0 x1 n q
  rw [colDist_eq]
  exact Finset.fold_congr fun p _ => (congrArg _ (lift1_eq h n q p)).trans (v15_at x0 x1 n p q)

/-! ## The mean of the two means -/

/-- The reference's result is the mean of means of the two distance arrays, whatever proofs of the three shape
    facts the term is stated over (they are propositions). -/
theorem result_eq_of (hr : Dists.ReducesTo [1] PerBatch) (hs : 0 < Scal.numel)
    (hb : Scal.BroadcastsInDim PerBatch (![] : Fin 0 → Fin PerBatch.rank))
    (x0 x1 : (⟨S8x4096x32, .f32⟩ : BufTy).Contents (Elt Ideal)) :
    val_main_v26 (F := Ideal) x0 x1 = meanOfMeans hr hs hb (rowArr x0 x1) (colArr x0 x1) := by
  unfold val_main_v26 val_main_v24 val_main_v19 val_main_v23 val_main_v17 val_main_v21 val_main_v18 val_main_v22
    val_main_v25 val_main_cst_4 val_main_cst_5 val_main_cst_7 val_main_cst_8 val_main_cst_9 meanOfMeans
  rw [v16_eq, v20_eq]

/-- The same over the shape facts the reference's own stages cite. -/
theorem result_eq (x0 x1 : (⟨S8x4096x32, .f32⟩ : BufTy).Contents (Elt Ideal)) :
    val_main_v26 (F := Ideal) x0 x1
      = meanOfMeans reducesTo_S8x4096_S8_d1 h_S_ bcast_S_S8 (rowArr x0 x1) (colArr x0 x1) :=
  result_eq_of _ _ _ x0 x1

end Cert.Chamfer.Ref

end
-- ==== Proof.lean ====
/-
  The two programs compute one function of the two point clouds.

  For clouds x, y of 8 batches × 4096 points × 32 coordinates both programs form the squared distances
  s(n, p, q) = |x_p|² + |y_q|² − 2·⟨x_p, y_q⟩ and return, per batch, the mean of the mean distance from a point of x to
  the cloud y and the mean distance from a point of y to the cloud x, a distance being √(max s 0) minimized over the
  other cloud.  The reference takes the root of every squared distance and then the minima; the kernel sweeps the
  squared distances tile by tile, keeps running minima — along rows within a grid point, along columns across the four
  tiles of a batch in a carried buffer — and takes the root of the minima only.  Over the extended reals
  z ↦ √(max z 0) is monotone and fixes +∞, so it commutes with a minimum taken from +∞: the two orders agree
  (Spec.lean).  The sums and products are the same on both sides; a change of float format is the identity there.

  Kernel side: Tile.lean (a tile at an index), Point.lean (what a grid point computes), Pieces.lean (what each of the
  body's three control cases leaves), Invariant.lean (the outputs after each point, by induction on the point), Final.lean
  (the two output arrays and the host's last lines).  Reference side: RefSide.lean.
-/
import proofs.«108786_j8254927143420_2_alg».proof.Defs
import proofs.«108786_j8254927143420_2_alg».proof.Proof.Gen.Kernel
import proofs.«108786_j8254927143420_2_alg».proof.Proof.Gen.Kernel.Skeleton
import proofs.«108786_j8254927143420_2_alg».proof.Proof.Gen.Kernel.Launch
import proofs.«108786_j8254927143420_2_alg».proof.Proof.Gen.Kernel.Points
import proofs.«108786_j8254927143420_2_alg».proof.Proof.Gen.Kernel.Frame
import proofs.«108786_j8254927143420_2_alg».proof.Proof.Gen.KernelIdeal
import proofs.«108786_j8254927143420_2_alg».proof.Proof.Gen.KernelIdeal.Skeleton
import proofs.«108786_j8254927143420_2_alg».proof.Proof.Gen.KernelIdeal.Launch
import proofs.«108786_j8254927143420_2_alg».proof.Proof.Gen.KernelIdeal.Points
import proofs.«108786_j8254927143420_2_alg».proof.Proof.Gen.KernelIdeal.Frame
import proofs.«108786_j8254927143420_2_alg».proof.Proof.Gen.ReferenceIdeal
import proofs.«108786_j8254927143420_2_alg».proof.Proof.Gen.ReferenceIdeal.Run
import proofs.«108786_j8254927143420_2_alg».proof.Proof.Gen.ReferenceIdeal.Read
import proofs.«108786_j8254927143420_2_alg».proof.Proof.Gen.Pre_finite_inputs
import proofs.«108786_j8254927143420_2_alg».proof.Proof.Spec
import proofs.«108786_j8254927143420_2_alg».proof.Proof.Invariant
import proofs.«108786_j8254927143420_2_alg».proof.Proof.Final
import proofs.«108786_j8254927143420_2_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From clouds that agree, both programs end at the mean of the two mean distances. -/
theorem algebraic : Cert.algebraic_KernelIdeal_ReferenceIdeal := by
  intro m ρ m' ρ' _ hagree
  refine ⟨_, Cert.Chamfer.K.run m ρ (fun c t => Cert.Chamfer.K.outs_row m c t)
    (fun c t h => Cert.Chamfer.K.outs_col m c t h), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  exact Cert.Chamfer.Ref.result_eq_of _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
